-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000x1 : Shape := ⟨2, ![50000, 1]⟩
abbrev S128x128 : Shape := ⟨2, ![128, 128]⟩
abbrev S128 : Shape := ⟨1, ![128]⟩
abbrev S256x128 : Shape := ⟨2, ![256, 128]⟩
abbrev S129x128 : Shape := ⟨2, ![129, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x1 : S_.BroadcastsInDim S50000x1 (![] : Fin 0 → Fin S50000x1.rank)
  reducesTo_S50000x1_S_d0_1 : S50000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S129x128 : S_.BroadcastsInDim S129x128 (![] : Fin 0 → Fin S129x128.rank)
  reducesTo_S129x128_S_d0_1 : S129x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128 .f32) (main_arg9 : FVec F S128x1 .f32) (main_arg10 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg9
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S256x128 .f32) (main_arg6 : FVec F S128 .f32) (main_arg7 : FVec F S129x128 .f32) (main_arg8 : FVec F S128 .f32) (main_arg9 : FVec F S128x1 .f32) (main_arg10 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S129x128 .f32 := Host.absf main_arg7
  let main_cst_10 : FVec F S_ .f32 := constant S_ .f32 0x7F800000#32
  let main_v30 : FVec F S129x128 .f32 := broadcastInDim S129x128 ![] bcast_S_S129x128 main_cst_10
  let main_v31 : IVec S129x128 1 := cmpf .olt main_v29 main_v30
  let main_c_11 : IVec S_ 1 := constantI S_ 1 1#1
  let main_v32 : IVec S_ 1 := (fun x v => Host.reduce IntOp.andi x v reducesTo_S129x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S50000x1 .f32) (main_arg3 : FVec F S128x128 .f32) (main_arg4 : FVec F S128 .f32) (main_arg5 : FVec F S256x128 .f32) (main_arg6 : FVec F S128 .f32) (main_arg7 : FVec F S129x128 .f32) (main_arg8 : FVec F S128 .f32) (main_arg9 : FVec F S128x1 .f32) (main_arg10 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x1 .f32 := Host.absf main_arg2
  let main_cst_0 : FVec F S_ .f32 := constant S_ .f32 0x7F800000#32
  let main_v5 : FVec F S50000x1 .f32 := broadcastInDim S50000x1 ![] bcast_S_S50000x1 main_cst_0
  let main_v6 : IVec S50000x1 1 := cmpf .olt main_v4 main_v5
  let main_c_1 : IVec S_ 1 := constantI S_ 1 1#1
  let main_v7 : IVec S_ 1 := (fun x v => Host.reduce IntOp.andi x v reducesTo_S50000x1_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000x1 : Shape := ⟨2, ![50000, 1]⟩
abbrev S128x128 : Shape := ⟨2, ![128, 128]⟩
abbrev S128 : Shape := ⟨1, ![128]⟩
abbrev S256x128 : Shape := ⟨2, ![256, 128]⟩
abbrev S129x128 : Shape := ⟨2, ![129, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S2000x128 : Shape := ⟨2, ![2000, 128]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S2000x1 : Shape := ⟨2, ![2000, 1]⟩
abbrev S1x1 : Shape := ⟨2, ![1, 1]⟩

abbrev nBuf : Space → Nat
  | .hbm => 32
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000x1, .f32⟩
  | .hbm, ⟨3, _⟩ => ⟨S128x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S129x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S50000x128, .bf16⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .bf16⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S50000x128, .f32⟩
  | .hbm, ⟨31, _⟩ => ⟨S50000x1, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128, .f32⟩
  | .local _ .vmem, ⟨4, _⟩ => ⟨S2000x128, .bf16⟩
  | .local _ .vmem, ⟨5, _⟩ => ⟨S2000x128, .bf16⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x1, .f32⟩
  | .local _ .vmem, ⟨11, _⟩ => ⟨S2000x1, .f32⟩
  | .local _ .vmem, ⟨12, _⟩ => ⟨S256x128, .f32⟩
  | .local _ .vmem, ⟨13, _⟩ => ⟨S128, .f32⟩
  | .local _ .vmem, ⟨14, _⟩ => ⟨S129x128, .f32⟩
  | .local _ .vmem, ⟨15, _⟩ => ⟨S128, .f32⟩
  | .local _ .vmem, ⟨16, _⟩ => ⟨S128x1, .f32⟩
  | .local _ .vmem, ⟨17, _⟩ => ⟨S1, .f32⟩
  | .local _ .vmem, ⟨18, _⟩ => ⟨S2000x128, .f32⟩
  | .local _ .vmem, ⟨19, _⟩ => ⟨S2000x128, .f32⟩
  | .local _ .vmem, ⟨20, _⟩ => ⟨S2000x1, .f32⟩
  | .local _ .vmem, ⟨21, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16_0 : Ref sig .tc := ⟨.hbm, 30, rfl⟩
abbrev main_v16_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg9_1 : Ref sig .tc := ⟨.vmem, 19, rfl⟩
abbrev cc1_stg10_0 : Ref sig .tc := ⟨.vmem, 20, rfl⟩
abbrev cc1_stg10_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem9_1 : DmaSem sig := 19
abbrev cc1_sem10_0 : DmaSem sig := 20
abbrev cc1_sem10_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S129x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2000x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  inb_S256x128_S128x128_0_0 : ∀ a, (![0, 0] : Fin 2 → Nat) a + S128x128.size a ≤ S256x128.size a
  inb_S256x128_S128x128_128_0 : ∀ a, (![128, 0] : Fin 2 → Nat) a + S128x128.size a ≤ S256x128.size a
  inb_S129x128_S128x128_0_0 : ∀ a, (![0, 0] : Fin 2 → Nat) a + S128x128.size a ≤ S129x128.size a
  inb_S129x128_S1x128_128_0 : ∀ a, (![128, 0] : Fin 2 → Nat) a + S1x128.size a ≤ S129x128.size a
  h_S1x128 : 0 < S1x128.numel
  broadcasts_S2000x1_S2000x128 : S2000x1.Broadcasts S2000x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .bf16 = 32 ∨ (Rect.block (s := S50000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S129x128.size a ≤ S129x128.size a
  hwx1_5 : ∀ i : grid1.Coords, EltTy.bits .f32 = 32 ∨ (Rect.block (s := S129x128) S129x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x1.size a ≤ S128x1.size a
  hwx1_7 : ∀ i : grid1.Coords, EltTy.bits .f32 = 32 ∨ (Rect.block (s := S128x1) S128x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1.size a ≤ S1.size a
  hwx1_8 : ∀ i : grid1.Coords, EltTy.bits .f32 = 32 ∨ (Rect.block (s := S1) S1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S50000x128.size a
  hwx1_9 : ∀ i : grid1.Coords, EltTy.bits .f32 = 32 ∨ (Rect.block (s := S50000x128) S2000x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x1.size a ≤ S50000x1.size a
  hwx1_10 : ∀ i : grid1.Coords, EltTy.bits .f32 = 32 ∨ (Rect.block (s := S50000x1) S2000x1.size (cc1_transform_10 i) (hinb1_10 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S129x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S128x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg10) S1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v16_0) S2000x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v16_1) S2000x1.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000x1 : Shape := ⟨2, ![50000, 1]⟩
abbrev S128x128 : Shape := ⟨2, ![128, 128]⟩
abbrev S128 : Shape := ⟨1, ![128]⟩
abbrev S256x128 : Shape := ⟨2, ![256, 128]⟩
abbrev S129x128 : Shape := ⟨2, ![129, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S50000x129 : Shape := ⟨2, ![50000, 129]⟩
abbrev S1x1 : Shape := ⟨2, ![1, 1]⟩

abbrev nBuf : Space → Nat
  | .hbm => 60
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000x1, .f32⟩
  | .hbm, ⟨3, _⟩ => ⟨S128x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S129x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S50000x128, .f32⟩
  | .hbm, ⟨16, _⟩ => ⟨S1x128, .f32⟩
  | .hbm, ⟨17, _⟩ => ⟨S50000x128, .f32⟩
  | .hbm, ⟨18, _⟩ => ⟨S50000x128, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x128, .f32⟩
  | .hbm, ⟨28, _⟩ => ⟨S_, .f32⟩
  | .hbm, ⟨29, _⟩ => ⟨S50000x128, .f32⟩
  | .hbm, ⟨30, _⟩ => ⟨S800000x1, .i32⟩
  | .hbm, ⟨31, _⟩ => ⟨S50000x128, .f32⟩
  | .hbm, ⟨32, _⟩ => ⟨S50000x256, .f32⟩
  | .hbm, ⟨33, _⟩ => ⟨S50000x128, .f32⟩
  | .hbm, ⟨34, _⟩ => ⟨S1x128, .f32⟩
  | .hbm, ⟨35, _⟩ => ⟨S50000x128, .f32⟩
  | .hbm, ⟨36, _⟩ => ⟨S50000x128, .f32⟩
  | .hbm, ⟨37, _⟩ => ⟨S50000x129, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S50000x128, .f32⟩
  | .hbm, ⟨49, _⟩ => ⟨S50000x128, .f32⟩
  | .hbm, ⟨50, _⟩ => ⟨S50000x128, .f32⟩
  | .hbm, ⟨51, _⟩ => ⟨S_, .f32⟩
  | .hbm, ⟨52, _⟩ => ⟨S50000x128, .f32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S50000x1, .f32⟩
  | .hbm, ⟨57, _⟩ => ⟨S1x1, .f32⟩
  | .hbm, ⟨58, _⟩ => ⟨S50000x1, .f32⟩
  | .hbm, ⟨59, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_1 : Ref sig .tc := ⟨.hbm, 44, rfl⟩
abbrev main_v30 : Ref sig .tc := ⟨.hbm, 45, rfl⟩
abbrev main_v31 : Ref sig .tc := ⟨.hbm, 46, rfl⟩
abbrev main_cst_2 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  concatenates_S50000x128_S50000x128_S50000x256_d1 : Shape.Concatenates [S50000x128, S50000x128] S50000x256 1
  concatenates_S50000x128_S50000x1_S50000x129_d1 : Shape.Concatenates [S50000x128, S50000x1] S50000x129 1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x129_S129x128_S50000x128_1_0_0_1_n_n_wf : DotDims.WF S50000x129 S129x128 S50000x128 [1] [0] [0] [1] [] []
  dot_S50000x128_S128x1_S50000x1_1_0_0_1_n_n_wf : DotDims.WF S50000x128 S128x1 S50000x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x129_S129x128_S50000x128_1_0_0_1_n_n : DotDims S50000x129 S129x128 S50000x128 where
  lhsContracting := [1]
  rhsContracting := [0]
  lhsNonContracting := [0]
  rhsNonContracting := [1]
  lhsBatch := []
  rhsBatch := []
  wf := dot_S50000x129_S129x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KernelRun.lean ====
/-
  The idealized kernel program run from any memory: every weakly fair execution ends, and every buffer that
  outlives the two kernel regions then holds what the program's fold through its four segments
  (host operations, region 0, host operations, region 1) leaves in it. The two results are the arrays that
  region 1's write-backs leave; the arguments are as launched.
-/
import proofs.«119715_j71459665871600_2_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every final state holds, at every buffer that is not scoped to a region, the fold's last contents. -/
theorem run_fold : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The run with the two results named: each is what region 1's write-backs leave of its output window's array
    (windows 9 and 10 of the second kernel), and every argument is as launched. -/
theorem run_results : θ_run defs (onTc (τ := τ) (main (F := F))) ⟨m, fun _ => 0, ρ⟩ (fun r => ∀ c : Dev nD,
      r.2.mem ((c.tc : Thread nD τ).loc main_v16_0) = (dat1 (V3 m ρ) c).arrAt 9 cfg1.N
      ∧ r.2.mem ((c.tc : Thread nD τ).loc main_v16_1) = (dat1 (V3 m ρ) c).arrAt 10 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
      ⟨(h c _ (mem_uc main_v16_0 (by decide))).trans (W4_arr m ρ c 9),
       (h c _ (mem_uc main_v16_1 (by decide))).trans (W4_arr m ρ c 10),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)
    (run_fold m ρ)

end Cert.KernelIdeal.Fold

end
-- ==== Proof.Products.lean ====
/-
  The kernels' matrix products read at an entry. Into a zero accumulator a product of a [2000, 128] block with a
  [128, n] matrix is, at entry (p, q), the plain sum over k of l(p, k) · r(k, q) on the extended reals: the
  contraction runs over one axis of extent 128, and the operands' indices at a contraction position k are
  (p, k) and (k, q).
-/
import proofs.«119715_j71459665871600_2_alg».proof.Proof.Gen.KernelIdeal
import Idealize.ShloMosaic.Lib.ValueIdx
import Idealize.ShloMosaic.PureOps.Ideal.Laws

noncomputable section

namespace Cert.KernelIdeal.Products

open Cert.KernelIdeal Idealize.ShloMosaic Idealize.ShloMosaic.ValueIdx

/-! ## The [2000, 128] × [128, 128] product -/

theorem sq_lhs0 (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem sq_lhs1 (i : S2000x128.Idx) (q : dot_S2000x128_S128x128_S2000x128_1_0_0_1_n_n.contr.Idx) : (dot_S2000x128_S128x128_S2000x128_1_0_0_1_n_n.lhsIdx i q 1).val = (q ⟨0, by decide⟩).val :=
  dot_S2000x128_S128x128_S2000x128_1_0_0_1_n_n.lhsIdx_val_of_single rfl i q
theorem sq_rhs0 (i : S2000x128.Idx) (q : dot_S2000x128_S128x128_S2000x128_1_0_0_1_n_n.contr.Idx) : (dot_S2000x128_S128x128_S2000x128_1_0_0_1_n_n.rhsIdx i q 0).val = (q ⟨0, by decide⟩).val :=
  dot_S2000x128_S128x128_S2000x128_1_0_0_1_n_n.rhsIdx_val_of_single rfl i q
theorem sq_rhs1 (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry (p, q) of the product of a block with a square matrix. -/
theorem sq_apply (l : FVec Ideal S2000x128 .bf16) (r : FVec Ideal S128x128 .bf16) (p : Fin 2000) (q : Fin 128) :
    FloatOps.matmul dot_S2000x128_S128x128_S2000x128_1_0_0_1_n_n none l r (constant S2000x128 .f32 0x00000000#32) (ix2 p q)
      = ∑ k : Fin 128, l (ix2 p k) * r (ix2 k q) := by
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact sq_lhs0 _ _
    | ⟨1, _⟩ => exact (sq_lhs1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (sq_rhs0 _ _).trans hk
    | ⟨1, _⟩ => exact sq_rhs1 _ _)
  rw [el, er]

/-! ## The [2000, 128] × [128, 1] product -/

theorem col_lhs0 (i : S2000x1.Idx) (q : dot_S2000x128_S128x1_S2000x1_1_0_0_1_n_n.contr.Idx) : (dot_S2000x128_S128x1_S2000x1_1_0_0_1_n_n.lhsIdx i q 0).val = (i 0).val := by
  unfold DotDims.lhsIdx
  rw [dif_neg (show ¬(0 : Fin S2000x128.rank) ∈ dot_S2000x128_S128x1_S2000x1_1_0_0_1_n_n.lhsBatch by decide), dif_pos (show (0 : Fin S2000x128.rank) ∈ dot_S2000x128_S128x1_S2000x1_1_0_0_1_n_n.lhsNonContracting by decide)]
  rfl
theorem col_lhs1 (i : S2000x1.Idx) (q : dot_S2000x128_S128x1_S2000x1_1_0_0_1_n_n.contr.Idx) : (dot_S2000x128_S128x1_S2000x1_1_0_0_1_n_n.lhsIdx i q 1).val = (q ⟨0, by decide⟩).val :=
  dot_S2000x128_S128x1_S2000x1_1_0_0_1_n_n.lhsIdx_val_of_single rfl i q
theorem col_rhs0 (i : S2000x1.Idx) (q : dot_S2000x128_S128x1_S2000x1_1_0_0_1_n_n.contr.Idx) : (dot_S2000x128_S128x1_S2000x1_1_0_0_1_n_n.rhsIdx i q 0).val = (q ⟨0, by decide⟩).val :=
  dot_S2000x128_S128x1_S2000x1_1_0_0_1_n_n.rhsIdx_val_of_single rfl i q
theorem col_rhs1 (i : S2000x1.Idx) (q : dot_S2000x128_S128x1_S2000x1_1_0_0_1_n_n.contr.Idx) : (dot_S2000x128_S128x1_S2000x1_1_0_0_1_n_n.rhsIdx i q 1).val = (i 1).val := by
  unfold DotDims.rhsIdx
  rw [dif_neg (show ¬(1 : Fin S128x1.rank) ∈ dot_S2000x128_S128x1_S2000x1_1_0_0_1_n_n.rhsBatch by decide), dif_pos (show (1 : Fin S128x1.rank) ∈ dot_S2000x128_S128x1_S2000x1_1_0_0_1_n_n.rhsNonContracting by decide)]
  rfl

/-- Entry (p, 0) of the product of a block with a one-column matrix. -/
theorem col_apply (l : FVec Ideal S2000x128 .bf16) (r : FVec Ideal S128x1 .bf16) (p : Fin 2000) (q : Fin 1) :
    FloatOps.matmul dot_S2000x128_S128x1_S2000x1_1_0_0_1_n_n none l r (constant S2000x1 .f32 0x00000000#32) (ix2 p q)
      = ∑ k : Fin 128, l (ix2 p k) * r (ix2 k q) := by
  rw [Ideal.matmul_constant_zero_apply, ← Equiv.sum_comp (contrEquiv1 dot_S2000x128_S128x1_S2000x1_1_0_0_1_n_n 128 rfl rfl).symm]
  refine Finset.sum_congr rfl fun k _ => ?_
  have hk := contrEquiv1_symm_val dot_S2000x128_S128x1_S2000x1_1_0_0_1_n_n 128 rfl rfl k
  have el : dot_S2000x128_S128x1_S2000x1_1_0_0_1_n_n.lhsIdx (ix2 p q) ((contrEquiv1 dot_S2000x128_S128x1_S2000x1_1_0_0_1_n_n 128 rfl rfl).symm k) = ix2 p k := funext fun a => Fin.ext (by
    match a with
    | ⟨0, _⟩ => exact col_lhs0 _ _
    | ⟨1, _⟩ => exact (col_lhs1 _ _).trans hk)
  have er : dot_S2000x128_S128x1_S2000x1_1_0_0_1_n_n.rhsIdx (ix2 p q) ((contrEquiv1 dot_S2000x128_S128x1_S2000x1_1_0_0_1_n_n 128 rfl rfl).symm k) = ix2 k q := funext fun a => Fin.ext (by
    match a with
    | ⟨0, _⟩ => exact (col_rhs0 _ _).trans hk
    | ⟨1, _⟩ => exact col_rhs1 _ _)
  rw [el, er]

end Cert.KernelIdeal.Products

end
-- ==== Proof.Spec.lean ====
/-
  The layer as plain mathematics over the extended reals, one node (one row) at a time.

  A node has a feature row x (128 entries), an aggregated-message row a (128 entries) and an importance
  scalar. With W_upd split into its top and bottom 128 rows, W_gate into its first 128 rows and its last row:
    msg    = x · W_msg + b_msg
    conv   = (x · W_upd[top] + a · W_upd[bottom]) + b_upd
    logit  = (conv · W_gate[first 128] + importance · W_gate[last]) + b_gate
    gate   = 1 / (1 + e^(−logit))
    out    = gate · conv + (1 − gate) · x
    prop   = out · W_imp + b_imp
  The same formulas are then read over the whole arrays: entry (r, q) depends on row r of the node arrays
  only. The two laws that join a product with a concatenated row to the split form are sums over
  Fin 256 and Fin 129 cut at 128: they use only that addition is commutative and associative, so they hold
  at the infinities too and no finiteness is needed.
-/
import Idealize.ShloMosaic.PureOps.Ideal
import Idealize.ShloMosaic.PureOps.Ideal.Laws
import Idealize.ShloMosaic.Lib.ValueIdx

noncomputable section

namespace Cert.LayerSpec

open Idealize.ShloMosaic Idealize.ShloMosaic.ValueIdx

/-! ## Shapes and positions -/

abbrev ShN128 : Shape := ⟨2, ![50000, 128]⟩
abbrev ShN1 : Shape := ⟨2, ![50000, 1]⟩
abbrev Sh128x128 : Shape := ⟨2, ![128, 128]⟩
abbrev Sh256x128 : Shape := ⟨2, ![256, 128]⟩
abbrev Sh129x128 : Shape := ⟨2, ![129, 128]⟩
abbrev Sh128x1 : Shape := ⟨2, ![128, 1]⟩
abbrev Sh128 : Shape := ⟨1, ![128]⟩
abbrev Sh1 : Shape := ⟨1, ![1]⟩

/-- Row k of the top half of a 256-row matrix. -/
def lo (k : Fin 128) : Fin 256 := ⟨k.val, by have := k.isLt; omega⟩
/-- Row k of the bottom half of a 256-row matrix. -/
def hi (k : Fin 128) : Fin 256 := ⟨128 + k.val, by have := k.isLt; omega⟩
/-- Row k among the first 128 rows of a 129-row matrix. -/
def fst9 (k : Fin 128) : Fin 129 := ⟨k.val, by have := k.isLt; omega⟩
/-- The last row of a 129-row matrix. -/
def last9 : Fin 129 := ⟨128, by omega⟩
/-- The only column of a one-column array. -/
def c0 : Fin 1 := ⟨0, Nat.one_pos⟩

/-- The float literal 1.0, as the extended real it denotes. -/
abbrev lit1 : EReal := Ideal.ofBits .f32 0x3F800000#32

theorem lit1_eq : lit1 = 1 := by
  simp [lit1, Ideal.ofBits, Ideal.ieee, -EReal.coe_mul]; norm_num

/-! ## One node -/

/-- x · W + b at column q. -/
def msg (x : Fin 128 → EReal) (W : Fin 128 → Fin 128 → EReal) (b : Fin 128 → EReal) (q : Fin 128) : EReal :=
  (∑ k, x k * W k q) + b q

/-- (x · W₁ + a · W₂) + b at column q. -/
def conv (x a : Fin 128 → EReal) (W₁ W₂ : Fin 128 → Fin 128 → EReal) (b : Fin 128 → EReal) (q : Fin 128) : EReal :=
  ((∑ k, x k * W₁ k q) + (∑ k, a k * W₂ k q)) + b q

/-- (c · W + imp · w) + b at column q. -/
def logit (c : Fin 128 → EReal) (imp : EReal) (W : Fin 128 → Fin 128 → EReal) (w b : Fin 128 → EReal) (q : Fin 128) : EReal :=
  ((∑ k, c k * W k q) + imp * w q) + b q

/-- g · c + (1 − g) · x. -/
def mix (g c x : EReal) : EReal := g * c + (lit1 - g) * x

/-- The gated output at column q. -/
def out (x a : Fin 128 → EReal) (imp : EReal) (W₁ W₂ : Fin 128 → Fin 128 → EReal) (bu : Fin 128 → EReal)
    (Wg : Fin 128 → Fin 128 → EReal) (wg bg : Fin 128 → EReal) (q : Fin 128) : EReal :=
  mix (Ideal.logistic (logit (conv x a W₁ W₂ bu) imp Wg wg bg q)) (conv x a W₁ W₂ bu q) (x q)

/-- o · w + b. -/
def prop (o : Fin 128 → EReal) (w : Fin 128 → EReal) (b : EReal) : EReal := (∑ k, o k * w k) + b

/-! ## The whole arrays -/

/-- The per-node messages: entry (r, q). -/
def msgAt (X : ShN128.Idx → EReal) (W : Sh128x128.Idx → EReal) (b : Sh128.Idx → EReal) (r : Fin 50000) (q : Fin 128) : EReal :=
  msg (fun k => X (ix2 r k)) (fun k q' => W (ix2 k q')) (fun q' => b (ix1 q')) q

def msgArr (X : ShN128.Idx → EReal) (W : Sh128x128.Idx → EReal) (b : Sh128.Idx → EReal) : ShN128.Idx → EReal :=
  fun i => msgAt X W b (i 0) (i 1)

/-- The layer's first result: entry (r, q), from the node features X, the aggregated messages A and the importances I. -/
def outAt (X A : ShN128.Idx → EReal) (I : ShN1.Idx → EReal) (Wu : Sh256x128.Idx → EReal) (bu : Sh128.Idx → EReal)
    (Wg : Sh129x128.Idx → EReal) (bg : Sh128.Idx → EReal) (r : Fin 50000) (q : Fin 128) : EReal :=
  out (fun k => X (ix2 r k)) (fun k => A (ix2 r k)) (I (ix2 r c0))
    (fun k q' => Wu (ix2 (lo k) q')) (fun k q' => Wu (ix2 (hi k) q')) (fun q' => bu (ix1 q'))
    (fun k q' => Wg (ix2 (fst9 k) q')) (fun q' => Wg (ix2 last9 q')) (fun q' => bg (ix1 q')) q

def outArr (X A : ShN128.Idx → EReal) (I : ShN1.Idx → EReal) (Wu : Sh256x128.Idx → EReal) (bu : Sh128.Idx → EReal)
    (Wg : Sh129x128.Idx → EReal) (bg : Sh128.Idx → EReal) : ShN128.Idx → EReal :=
  fun i => outAt X A I Wu bu Wg bg (i 0) (i 1)

/-- The layer's second result: entry (r, 0). -/
def propAt (O : ShN128.Idx → EReal) (Wi : Sh128x1.Idx → EReal) (bi : Sh1.Idx → EReal) (r : Fin 50000) : EReal :=
  prop (fun k => O (ix2 r k)) (fun k => Wi (ix2 k c0)) (bi (ix1 c0))

def propArr (O : ShN128.Idx → EReal) (Wi : Sh128x1.Idx → EReal) (bi : Sh1.Idx → EReal) : ShN1.Idx → EReal :=
  fun i => propAt O Wi bi (i 0)

/-! ## Equal arguments, equal values -/

theorem msg_congr {x x' : Fin 128 → EReal} {W W' : Fin 128 → Fin 128 → EReal} {b b' : Fin 128 → EReal} {q q' : Fin 128}
    (hx : x = x') (hW : W = W') (hb : b = b') (hq : q = q') : msg x W b q = msg x' W' b' q' := by
  subst hx hW hb hq; rfl

theorem out_congr {x x' a a' : Fin 128 → EReal} {imp imp' : EReal} {W₁ W₁' W₂ W₂' : Fin 128 → Fin 128 → EReal} {bu bu' : Fin 128 → EReal}
    {Wg Wg' : Fin 128 → Fin 128 → EReal} {wg wg' bg bg' : Fin 128 → EReal} {q q' : Fin 128}
    (hx : x = x') (ha : a = a') (hi : imp = imp') (h1 : W₁ = W₁') (h2 : W₂ = W₂') (hbu : bu = bu')
    (hg : Wg = Wg') (hw : wg = wg') (hbg : bg = bg') (hq : q = q') :
    out x a imp W₁ W₂ bu Wg wg bg q = out x' a' imp' W₁' W₂' bu' Wg' wg' bg' q' := by
  subst hx ha hi h1 h2 hbu hg hw hbg hq; rfl

theorem prop_congr {o o' w w' : Fin 128 → EReal} {b b' : EReal} (ho : o = o') (hw : w = w') (hb : b = b') :
    prop o w b = prop o' w' b' := by
  subst ho hw hb; rfl

/-! ## The laws -/

/-- A sum over 256 cut at 128. -/
theorem sum_256 (f : Fin 256 → EReal) : ∑ k, f k = (∑ k : Fin 128, f (lo k)) + ∑ k : Fin 128, f (hi k) := by
  have h := Fin.sum_univ_add (M := EReal) (a := 128) (b := 128) f
  refine h.trans ?_
  congr 1

/-- A sum over 129: the first 128 and the last. -/
theorem sum_129 (f : Fin 129 → EReal) : ∑ k, f k = (∑ k : Fin 128, f (fst9 k)) + f last9 := by
  have h := Fin.sum_univ_castSucc (M := EReal) (n := 128) f
  exact h

/-- The gate as the reference spells it, 1 / (1 + e^(−z)) with the float literal 1.0, is the logistic function. -/
theorem logistic_spelt (z : EReal) : Ideal.div lit1 (lit1 + Ideal.exp (-z)) = Ideal.logistic z := by
  rw [lit1_eq]; rfl

end Cert.LayerSpec

end
-- ==== Proof.Payloads.lean ====
/-
  What each kernel body stores, read at an entry, over the blocks it loaded.

  The message kernel stores, at (p, q) of its [2000, 128] block, the row p of the loaded node block times the
  loaded weight matrix plus the loaded bias: LayerSpec.msg. The update kernel stores LayerSpec.out of row p of its
  node block, of row p of its aggregate block, of entry p of its importance block and of the loaded pieces of the
  weights (the two halves of W_upd, the first 128 rows and the last row of W_gate), and then LayerSpec.prop of the
  whole stored row. Changes of float format are the identity on the extended reals.
-/
import proofs.«119715_j71459665871600_2_alg».proof.Proof.Gen.KernelIdeal.Skeleton
import proofs.«119715_j71459665871600_2_alg».proof.Proof.Products
import proofs.«119715_j71459665871600_2_alg».proof.Proof.Spec
import Idealize.ShloMosaic.Lib.Pipeline.Value
import Idealize.ShloMosaic.Lib.ValueIdx
import Idealize.ShloMosaic.Lib.ValueLayout

noncomputable section

namespace Cert.KernelIdeal.Payloads

open Cert.KernelIdeal Cert.KernelIdeal.Gen Cert.KernelIdeal.Products Cert.LayerSpec
open Idealize.ShloMosaic Idealize.ShloMosaic.ValueIdx

/-- A one-column array broadcast along its unit axis reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The message kernel -/

/-- The stored value of the message kernel at an entry of its block. -/
theorem msg_payload (v0 : Vec Ideal S2000x128 .f32) (v2 : Vec Ideal S128x128 .f32) (v5 : Vec Ideal S128 .f32) (y : S2000x128.Idx) :
    k0_pay1 v0 v2 v5 y = msg (fun k => v0 (ix2 (y 0) k)) (fun k q' => v2 (ix2 k q')) (fun q' => v5 (ix1 q')) (y 1) := by
  obtain ⟨p, q, rfl⟩ : ∃ (p : Fin 2000) (q : Fin 128), y = ix2 p q := ⟨y 0, y 1, eq_ix2 y⟩
  show FloatOps.matmul (F := Ideal) dot_S2000x128_S128x128_S2000x128_1_0_0_1_n_n none (truncf .bf16 v0 _) (truncf .bf16 v2 _) (constant S2000x128 .f32 0x00000000#32) (ix2 p q)
      + broadcastTo S2000x128 (shapeCast S1x128 v5 _) _ (ix2 p q) = _
  rw [sq_apply, broadcastTo_1b_ab_apply, shapeCast_a_1a_apply]
  rfl

/-! ## The update kernel -/

/-- The update kernel's conv_out block, as the body computes it from its loads. -/
def convBlock (v0 v1 : Vec Ideal S2000x128 .f32) (v6 v8 : Vec Ideal S128x128 .f32) (v13 : Vec Ideal S128 .f32) : FVec Ideal S2000x128 .f32 :=
  addf (addf (matmul dot_S2000x128_S128x128_S2000x128_1_0_0_1_n_n none (truncf .bf16 v0 bitsLt_bf16_f32) (truncf .bf16 v6 bitsLt_bf16_f32) (constant S2000x128 .f32 0x00000000#32))
      (matmul dot_S2000x128_S128x128_S2000x128_1_0_0_1_n_n none (truncf .bf16 (shapeCast S2000x128 v1 shapeCasts_S2000x128_S2000x128) bitsLt_bf16_f32) (truncf .bf16 v8 bitsLt_bf16_f32) (constant S2000x128 .f32 0x00000000#32)))
    (broadcastTo S2000x128 (shapeCast S1x128 v13 shapeCasts_S128_S1x128) broadcasts_S1x128_S2000x128)

theorem convBlock_apply (v0 v1 : Vec Ideal S2000x128 .f32) (v6 v8 : Vec Ideal S128x128 .f32) (v13 : Vec Ideal S128 .f32) (p : Fin 2000) (q : Fin 128) :
    convBlock v0 v1 v6 v8 v13 (ix2 p q)
      = conv (fun k => v0 (ix2 p k)) (fun k => v1 (ix2 p k)) (fun k q' => v6 (ix2 k q')) (fun k q' => v8 (ix2 k q')) (fun q' => v13 (ix1 q')) q := by
  show (FloatOps.matmul (F := Ideal) dot_S2000x128_S128x128_S2000x128_1_0_0_1_n_n none (truncf .bf16 v0 _) (truncf .bf16 v6 _) (constant S2000x128 .f32 0x00000000#32) (ix2 p q)
        + FloatOps.matmul (F := Ideal) dot_S2000x128_S128x128_S2000x128_1_0_0_1_n_n none (truncf .bf16 (shapeCast S2000x128 v1 _) _) (truncf .bf16 v8 _) (constant S2000x128 .f32 0x00000000#32) (ix2 p q))
      + broadcastTo S2000x128 (shapeCast S1x128 v13 _) _ (ix2 p q) = _
  rw [sq_apply, sq_apply, broadcastTo_1b_ab_apply, shapeCast_a_1a_apply, shapeCast_self]
  rfl

/-- The stored value of the update kernel's first output at an entry of its block. -/
theorem gate_payload (v0 v1 : Vec Ideal S2000x128 .f32) (v3 : Vec Ideal S2000x1 .f32) (v6 v8 : Vec Ideal S128x128 .f32) (v13 : Vec Ideal S128 .f32)
    (v18 : Vec Ideal S128x128 .f32) (v20 : Vec Ideal S1x128 .f32) (v26 : Vec Ideal S128 .f32) (y : S2000x128.Idx) :
    k1_pay2 v0 v1 v3 v6 v8 v13 v18 v20 v26 y
      = out (fun k => v0 (ix2 (y 0) k)) (fun k => v1 (ix2 (y 0) k)) (v3 (ix2 (y 0) c0))
          (fun k q' => v6 (ix2 k q')) (fun k q' => v8 (ix2 k q')) (fun q' => v13 (ix1 q'))
          (fun k q' => v18 (ix2 k q')) (fun q' => v20 (ix2 (0 : Fin 1) q')) (fun q' => v26 (ix1 q')) (y 1) := by
  obtain ⟨p, q, rfl⟩ : ∃ (p : Fin 2000) (q : Fin 128), y = ix2 p q := ⟨y 0, y 1, eq_ix2 y⟩
  show mix (Ideal.logistic (((FloatOps.matmul (F := Ideal) dot_S2000x128_S128x128_S2000x128_1_0_0_1_n_n none (truncf .bf16 (convBlock v0 v1 v6 v8 v13) _) (truncf .bf16 v18 _) (constant S2000x128 .f32 0x00000000#32) (ix2 p q))
          + (broadcastTo S2000x128 v3 _ (ix2 p q) * broadcastTo S2000x128 v20 _ (ix2 p q)))
          + broadcastTo S2000x128 (shapeCast S1x128 v26 _) _ (ix2 p q)))
        (convBlock v0 v1 v6 v8 v13 (ix2 p q)) (v0 (ix2 p q)) = _
  rw [sq_apply, broadcastTo_a1_ab_apply, broadcastTo_1b_ab_apply, broadcastTo_1b_ab_apply, shapeCast_a_1a_apply]
  simp only [truncf_apply, convBlock_apply]
  rfl

/-- The stored value of the update kernel's second output at an entry of its block. -/
theorem prop_payload (v35 : FVec Ideal S2000x128 .f32) (v36 : Vec Ideal S128x1 .f32) (v40 : Vec Ideal S1 .f32) (y : S2000x1.Idx) :
    k1_pay1 v35 v36 v40 y = prop (fun k => v35 (ix2 (y 0) k)) (fun k => v36 (ix2 k c0)) (v40 (ix1 c0)) := by
  obtain ⟨p, u, rfl⟩ : ∃ (p : Fin 2000) (u : Fin 1), y = ix2 p u := ⟨y 0, y 1, eq_ix2 y⟩
  obtain rfl : u = c0 := Subsingleton.elim _ _
  show FloatOps.matmul (F := Ideal) dot_S2000x128_S128x1_S2000x1_1_0_0_1_n_n none (truncf .bf16 v35 _) (truncf .bf16 v36 _) (constant S2000x1 .f32 0x00000000#32) (ix2 p c0)
      + broadcastTo S2000x1 (shapeCast S1x1 v40 _) _ (ix2 p c0) = _
  rw [col_apply, broadcastTo_1b_ab_apply, shapeCast_a_1a_apply]
  rfl

end Cert.KernelIdeal.Payloads

end
-- ==== Proof.MsgArray.lean ====
/-
  The message array after region 0. Grid point t of the message kernel stages rows 2000·t … 2000·t + 1999 of the
  node features (all 128 columns), the whole weight matrix and the whole bias, and writes back the same rows of
  its output. What it writes is LayerSpec.msg of those rows, so its block is the block of ONE whole-array
  function, LayerSpec.msgArr of the arrays the region finds; the 25 blocks tile the 50000 rows (row r lies in
  block r / 2000), so the array ends as that function.
-/
import proofs.«119715_j71459665871600_2_alg».proof.Proof.Gen.KernelIdeal.Frame
import proofs.«119715_j71459665871600_2_alg».proof.Proof.Payloads
import proofs.«119715_j71459665871600_2_alg».proof.Proof.Spec
import Idealize.ShloMosaic.Lib.Pipeline.Value

noncomputable section

namespace Cert.KernelIdeal.MsgArray

open Cert.KernelIdeal Cert.KernelIdeal.Gen Cert.KernelIdeal.Payloads Cert.LayerSpec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the 25 grid points: the node block and the output block are block t along the rows,
    every other block index is 0. -/
theorem idx0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- What point t writes back is block t of the message array. -/
theorem flushed_msg (c : Dev nD) (t : Fin cfg0.N) :
    (dat0 V c).flushed 3 t
      = ((cfg0.win 3).blk t).view.read (Elt Ideal) (msgArr (V c main_arg0) (V c main_arg3) (V c main_arg4)) := by
  show (cfg0.win 3).cut (grid0.coords t) ((dat0 V c).after 3 t) = _
  rw [after0_3]
  unfold out0_3
  rw [View.canon_unit_zero hz2]
  simp only [View.ld_unit_zero (S := S2000x128) hz2, View.ld_unit_zero (S := S128x128) hz2, View.ld_unit_zero (S := S128) hz1]
  obtain ⟨e00, e01, e10, e11, e20, e30, e31⟩ := idx0 t
  funext j
  show k0_pay1 (iblk0 V c 0 t) (iblk0 V c 1 t) (iblk0 V c 2 t) j
    = msgArr (V c main_arg0) (V c main_arg3) (V c main_arg4) (((cfg0.win 3).blk t).view.emb j)
  refine (msg_payload _ _ _ j).trans ?_
  unfold msgArr msgAt
  refine msg_congr (funext fun k => ?_) (funext fun k => funext fun q' => ?_) (funext fun q' => ?_) (Fin.ext ?_)
  · show V c main_arg0 (((cfg0.win 0).blk t).view.emb (ix2 (j 0) k)) = V c main_arg0 (ix2 ((((cfg0.win 3).blk t).view.emb j) 0) k)
    refine congrArg (V c main_arg0) (funext fun a => Fin.ext ?_)
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 128 + 1 * k.val = k.val; omega
  · show V c main_arg3 (((cfg0.win 1).blk t).view.emb (ix2 k q')) = V c main_arg3 (ix2 k q')
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * q'.val = q'.val; omega
  · show V c main_arg4 (((cfg0.win 2).blk t).view.emb (ix1 q')) = V c main_arg4 (ix1 q')
    refine congrArg (V c main_arg4) (funext fun a => Fin.ext ?_)
    match a with
    | ⟨0, _⟩ => show win0_2.index t (0 : Fin 1) * 128 + 1 * q'.val = q'.val; omega
  · show (j 1).val = win0_3.index t (1 : Fin 2) * 128 + 1 * (j 1).val; omega

/-- An index of the array is in point t's block iff each coordinate is in the block's range on its axis. -/
theorem mem_blk_msg (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v4).slice (win0_3.rect t)).set ↔ _
  rw [View.set_slice_whole, Rect.mem_set_unit]
  exact Iff.rfl

/-- Every row lies in some point's block: row r in block r / 2000. -/
theorem cover_msg (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : grid0.N = 25 := N_0
  have hlt : (i 0).val / 2000 < grid0.N := by rw [hN]; omega
  obtain ⟨-, -, -, -, -, e30, e31⟩ := idx0 ⟨(i 0).val / 2000, hlt⟩
  refine ⟨⟨(i 0).val / 2000, hlt⟩, flush0_3 _, ?_⟩
  rw [mem_blk_msg]
  intro a
  match a with
  | ⟨0, _⟩ =>
    show win0_3.index ⟨(i 0).val / 2000, hlt⟩ (0 : Fin 2) * 2000 ≤ (i 0).val
      ∧ (i 0).val < win0_3.index ⟨(i 0).val / 2000, hlt⟩ (0 : Fin 2) * 2000 + 2000
    rw [e30]; show (i 0).val / 2000 * 2000 ≤ (i 0).val ∧ (i 0).val < (i 0).val / 2000 * 2000 + 2000; omega
  | ⟨1, _⟩ =>
    show win0_3.index ⟨(i 0).val / 2000, hlt⟩ (1 : Fin 2) * 128 ≤ (i 1).val
      ∧ (i 1).val < win0_3.index ⟨(i 0).val / 2000, hlt⟩ (1 : Fin 2) * 128 + 128
    omega

/-- The message array after region 0, whatever the region finds in its arrays. -/
theorem msg_array (c : Dev nD) :
    (dat0 V c).arrAt 3 cfg0.N = msgArr (V c main_arg0) (V c main_arg3) (V c main_arg4) :=
  (dat0 V c).arrAt_eq_of_cover 3 _ (fun t _ => flushed_msg V c t) cover_msg

end Cert.KernelIdeal.MsgArray

end
-- ==== Proof.GateArrays.lean ====
/-
  The two result arrays after region 1. Grid point t of the update kernel stages rows 2000·t … 2000·t + 1999 of the
  node features, of the aggregated messages and of the importances, and the whole of every weight and bias; it
  writes back the same rows of its two outputs. Inside the body W_upd is loaded as its rows 0…127 and its rows
  128…255, W_gate as its rows 0…127 and its row 128. What the point writes is LayerSpec.out of its rows, then
  LayerSpec.prop of the rows it has just computed; so each block is the block of one whole-array function
  (LayerSpec.outArr, LayerSpec.propArr of it) of the arrays the region finds, and the 25 blocks tile the 50000 rows.
-/
import proofs.«119715_j71459665871600_2_alg».proof.Proof.Gen.KernelIdeal.Frame
import proofs.«119715_j71459665871600_2_alg».proof.Proof.Payloads
import proofs.«119715_j71459665871600_2_alg».proof.Proof.Spec
import proofs.«119715_j71459665871600_2_alg».proof.Proof.MsgArray
import Idealize.ShloMosaic.Lib.Pipeline.Value

noncomputable section

namespace Cert.KernelIdeal.GateArrays

open Cert.KernelIdeal Cert.KernelIdeal.Gen Cert.KernelIdeal.Payloads Cert.KernelIdeal.MsgArray Cert.LayerSpec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps over the 25 grid points: the three node blocks and the two output blocks are block t along
    the rows, every other block index is 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0 ∧ win1_4.index t (0 : Fin 1) = 0
    ∧ win1_5.index t (0 : Fin 2) = 0 ∧ win1_5.index t (1 : Fin 2) = 0 ∧ win1_6.index t (0 : Fin 1) = 0
    ∧ win1_7.index t (0 : Fin 2) = 0 ∧ win1_7.index t (1 : Fin 2) = 0 ∧ win1_8.index t (0 : Fin 1) = 0
    ∧ win1_9.index t (0 : Fin 2) = t.val ∧ win1_9.index t (1 : Fin 2) = 0
    ∧ win1_10.index t (0 : Fin 2) = t.val ∧ win1_10.index t (1 : Fin 2) = 0 :=
  (by decide +kernel : ∀ t : Fin grid1.N, _)

/-- The body's first stored value at entry y of its block is the whole-array function at the entry of the array
    that y is in point t's output block. -/
theorem block_out (c : Dev nD) (t : Fin cfg1.N) (y : S2000x128.Idx) :
    k1_pay2 (iblk1 V c 0 t) (iblk1 V c 1 t) (iblk1 V c 2 t) (View.ld (iblk1 V c 3 t) r1_2) (View.ld (iblk1 V c 3 t) r1_3) (iblk1 V c 4 t) (View.ld (iblk1 V c 5 t) r1_5) (View.ld (iblk1 V c 5 t) r1_6) (iblk1 V c 6 t) y
      = outArr (V c main_arg0) (V c main_v15) (V c main_arg2) (V c main_arg5) (V c main_arg6) (V c main_arg7) (V c main_arg8) (((cfg1.win 9).blk t).view.emb y) := by
  obtain ⟨e00, e01, e10, e11, e20, e21, e30, e31, e40, e50, e51, e60, e70, e71, e80, e90, e91, eA0, eA1⟩ := idx1 t
  refine (gate_payload _ _ _ _ _ _ _ _ _ y).trans ?_
  unfold outArr outAt
  refine out_congr (funext fun k => ?_) (funext fun k => ?_) ?_ (funext fun k => funext fun q' => ?_) (funext fun k => funext fun q' => ?_)
    (funext fun q' => ?_) (funext fun k => funext fun q' => ?_) (funext fun q' => ?_) (funext fun q' => ?_) (Fin.ext ?_)
  · show V c main_arg0 (((cfg1.win 0).blk t).view.emb (ix2 (y 0) k)) = V c main_arg0 (ix2 ((((cfg1.win 9).blk t).view.emb y) 0) k)
    refine congrArg (V c main_arg0) (funext fun a => Fin.ext ?_)
    match a with
    | ⟨0, _⟩ => show win1_0.index t (0 : Fin 2) * 2000 + 1 * (y 0).val = win1_9.index t (0 : Fin 2) * 2000 + 1 * (y 0).val; omega
    | ⟨1, _⟩ => show win1_0.index t (1 : Fin 2) * 128 + 1 * k.val = k.val; omega
  · show V c main_v15 (((cfg1.win 1).blk t).view.emb (ix2 (y 0) k)) = V c main_v15 (ix2 ((((cfg1.win 9).blk t).view.emb y) 0) k)
    refine congrArg (V c main_v15) (funext fun a => Fin.ext ?_)
    match a with
    | ⟨0, _⟩ => show win1_1.index t (0 : Fin 2) * 2000 + 1 * (y 0).val = win1_9.index t (0 : Fin 2) * 2000 + 1 * (y 0).val; omega
    | ⟨1, _⟩ => show win1_1.index t (1 : Fin 2) * 128 + 1 * k.val = k.val; omega
  · show V c main_arg2 (((cfg1.win 2).blk t).view.emb (ix2 (y 0) c0)) = V c main_arg2 (ix2 ((((cfg1.win 9).blk t).view.emb y) 0) c0)
    refine congrArg (V c main_arg2) (funext fun a => Fin.ext ?_)
    match a with
    | ⟨0, _⟩ => show win1_2.index t (0 : Fin 2) * 2000 + 1 * (y 0).val = win1_9.index t (0 : Fin 2) * 2000 + 1 * (y 0).val; omega
    | ⟨1, _⟩ => show win1_2.index t (1 : Fin 2) * 1 + 1 * 0 = 0; omega
  · show V c main_arg5 (((cfg1.win 3).blk t).view.emb (r1_2.emb (ix2 k q'))) = V c main_arg5 (ix2 (lo k) q')
    refine congrArg (V c main_arg5) (funext fun a => Fin.ext ?_)
    match a with
    | ⟨0, _⟩ => show win1_3.index t (0 : Fin 2) * 256 + 1 * (0 + 1 * k.val) = k.val; omega
    | ⟨1, _⟩ => show win1_3.index t (1 : Fin 2) * 128 + 1 * (0 + 1 * q'.val) = q'.val; omega
  · show V c main_arg5 (((cfg1.win 3).blk t).view.emb (r1_3.emb (ix2 k q'))) = V c main_arg5 (ix2 (hi k) q')
    refine congrArg (V c main_arg5) (funext fun a => Fin.ext ?_)
    match a with
    | ⟨0, _⟩ => show win1_3.index t (0 : Fin 2) * 256 + 1 * (128 + 1 * k.val) = 128 + k.val; omega
    | ⟨1, _⟩ => show win1_3.index t (1 : Fin 2) * 128 + 1 * (0 + 1 * q'.val) = q'.val; omega
  · show V c main_arg6 (((cfg1.win 4).blk t).view.emb (ix1 q')) = V c main_arg6 (ix1 q')
    refine congrArg (V c main_arg6) (funext fun a => Fin.ext ?_)
    match a with
    | ⟨0, _⟩ => show win1_4.index t (0 : Fin 1) * 128 + 1 * q'.val = q'.val; omega
  · show V c main_arg7 (((cfg1.win 5).blk t).view.emb (r1_5.emb (ix2 k q'))) = V c main_arg7 (ix2 (fst9 k) q')
    refine congrArg (V c main_arg7) (funext fun a => Fin.ext ?_)
    match a with
    | ⟨0, _⟩ => show win1_5.index t (0 : Fin 2) * 129 + 1 * (0 + 1 * k.val) = k.val; omega
    | ⟨1, _⟩ => show win1_5.index t (1 : Fin 2) * 128 + 1 * (0 + 1 * q'.val) = q'.val; omega
  · show V c main_arg7 (((cfg1.win 5).blk t).view.emb (r1_6.emb (ix2 (0 : Fin 1) q'))) = V c main_arg7 (ix2 last9 q')
    refine congrArg (V c main_arg7) (funext fun a => Fin.ext ?_)
    match a with
    | ⟨0, _⟩ => show win1_5.index t (0 : Fin 2) * 129 + 1 * (128 + 1 * 0) = 128; omega
    | ⟨1, _⟩ => show win1_5.index t (1 : Fin 2) * 128 + 1 * (0 + 1 * q'.val) = q'.val; omega
  · show V c main_arg8 (((cfg1.win 6).blk t).view.emb (ix1 q')) = V c main_arg8 (ix1 q')
    refine congrArg (V c main_arg8) (funext fun a => Fin.ext ?_)
    match a with
    | ⟨0, _⟩ => show win1_6.index t (0 : Fin 1) * 128 + 1 * q'.val = q'.val; omega
  · show (y 1).val = win1_9.index t (1 : Fin 2) * 128 + 1 * (y 1).val; omega

/-- What point t writes back to the first output is block t of the gated-output array. -/
theorem flushed_out (c : Dev nD) (t : Fin cfg1.N) :
    (dat1 V c).flushed 9 t = ((cfg1.win 9).blk t).view.read (Elt Ideal) (outArr (V c main_arg0) (V c main_v15) (V c main_arg2) (V c main_arg5) (V c main_arg6) (V c main_arg7) (V c main_arg8)) := by
  show (cfg1.win 9).cut (grid1.coords t) ((dat1 V c).after 9 t) = _
  rw [after1_9]
  unfold out1_9
  rw [View.canon_unit_zero hz2]
  simp only [View.ld_unit_zero (S := S2000x128) hz2, View.ld_unit_zero (S := S2000x1) hz2, View.ld_unit_zero (S := S128) hz1]
  funext j
  exact block_out V c t j

/-- What point t writes back to the second output is block t of the propagated-importance array. -/
theorem flushed_prop (c : Dev nD) (t : Fin cfg1.N) :
    (dat1 V c).flushed 10 t
      = ((cfg1.win 10).blk t).view.read (Elt Ideal) (propArr (outArr (V c main_arg0) (V c main_v15) (V c main_arg2) (V c main_arg5) (V c main_arg6) (V c main_arg7) (V c main_arg8)) (V c main_arg9) (V c main_arg10)) := by
  show (cfg1.win 10).cut (grid1.coords t) ((dat1 V c).after 10 t) = _
  rw [after1_10]
  unfold out1_10
  rw [View.canon_unit_zero hz2]
  simp only [View.ld_unit_zero (S := S2000x128) hz2, View.ld_unit_zero (S := S2000x1) hz2, View.ld_unit_zero (S := S128) hz1,
    View.ld_unit_zero (S := S128x1) hz2, View.ld_unit_zero (S := S1) hz1]
  obtain ⟨e00, e01, e10, e11, e20, e21, e30, e31, e40, e50, e51, e60, e70, e71, e80, e90, e91, eA0, eA1⟩ := idx1 t
  funext j
  show k1_pay1 (k1_pay2 (iblk1 V c 0 t) (iblk1 V c 1 t) (iblk1 V c 2 t) (View.ld (iblk1 V c 3 t) r1_2) (View.ld (iblk1 V c 3 t) r1_3) (iblk1 V c 4 t) (View.ld (iblk1 V c 5 t) r1_5) (View.ld (iblk1 V c 5 t) r1_6) (iblk1 V c 6 t)) (iblk1 V c 7 t) (iblk1 V c 8 t) j
    = propArr (outArr (V c main_arg0) (V c main_v15) (V c main_arg2) (V c main_arg5) (V c main_arg6) (V c main_arg7) (V c main_arg8)) (V c main_arg9) (V c main_arg10) (((cfg1.win 10).blk t).view.emb j)
  refine (prop_payload _ _ _ j).trans ?_
  unfold propArr propAt
  refine prop_congr (funext fun k => ?_) (funext fun k => ?_) ?_
  · refine (block_out V c t (ix2 (j 0) k)).trans ?_
    refine congrArg (outArr (V c main_arg0) (V c main_v15) (V c main_arg2) (V c main_arg5) (V c main_arg6) (V c main_arg7) (V c main_arg8)) (funext fun a => Fin.ext ?_)
    match a with
    | ⟨0, _⟩ => show win1_9.index t (0 : Fin 2) * 2000 + 1 * (j 0).val = win1_10.index t (0 : Fin 2) * 2000 + 1 * (j 0).val; omega
    | ⟨1, _⟩ => show win1_9.index t (1 : Fin 2) * 128 + 1 * k.val = k.val; omega
  · show V c main_arg9 (((cfg1.win 7).blk t).view.emb (ix2 k c0)) = V c main_arg9 (ix2 k c0)
    refine congrArg (V c main_arg9) (funext fun a => Fin.ext ?_)
    match a with
    | ⟨0, _⟩ => show win1_7.index t (0 : Fin 2) * 128 + 1 * k.val = k.val; omega
    | ⟨1, _⟩ => show win1_7.index t (1 : Fin 2) * 1 + 1 * 0 = 0; omega
  · show V c main_arg10 (((cfg1.win 8).blk t).view.emb (ix1 c0)) = V c main_arg10 (ix1 c0)
    refine congrArg (V c main_arg10) (funext fun a => Fin.ext ?_)
    match a with
    | ⟨0, _⟩ => show win1_8.index t (0 : Fin 1) * 1 + 1 * 0 = 0; omega

/-- An index of the first output is in point t's block iff each coordinate is in the block's range on its axis. -/
theorem mem_blk_out (t : Fin cfg1.N) (i : S50000x128.Idx) :
    i ∈ ((cfg1.win 9).blk t).view.set ↔ ∀ a : Fin 2, win1_9.index t a * S2000x128.size a ≤ (i a).val
      ∧ (i a).val < win1_9.index t a * S2000x128.size a + S2000x128.size a := by
  show i ∈ ((View.whole main_v16_0).slice (win1_9.rect t)).set ↔ _
  rw [View.set_slice_whole, Rect.mem_set_unit]
  exact Iff.rfl

/-- The same for the second output. -/
theorem mem_blk_prop (t : Fin cfg1.N) (i : S50000x1.Idx) :
    i ∈ ((cfg1.win 10).blk t).view.set ↔ ∀ a : Fin 2, win1_10.index t a * S2000x1.size a ≤ (i a).val
      ∧ (i a).val < win1_10.index t a * S2000x1.size a + S2000x1.size a := by
  show i ∈ ((View.whole main_v16_1).slice (win1_10.rect t)).set ↔ _
  rw [View.set_slice_whole, Rect.mem_set_unit]
  exact Iff.rfl

/-- Every row of the first output lies in some point's block: row r in block r / 2000. -/
theorem cover_out (i : S50000x128.Idx) :
    ∃ t : Fin cfg1.N, (cfg1.win 9).flush t = true ∧ i ∈ ((cfg1.win 9).blk t).view.set := by
  have hi0 : (i 0).val < 50000 := (i 0).isLt
  have hi1 : (i 1).val < 128 := (i 1).isLt
  have hN : grid1.N = 25 := N_1
  have hlt : (i 0).val / 2000 < grid1.N := by rw [hN]; omega
  obtain ⟨-, -, -, -, -, -, -, -, -, -, -, -, -, -, -, e90, e91, -, -⟩ := idx1 ⟨(i 0).val / 2000, hlt⟩
  refine ⟨⟨(i 0).val / 2000, hlt⟩, flush1_9 _, ?_⟩
  rw [mem_blk_out]
  intro a
  match a with
  | ⟨0, _⟩ =>
    show win1_9.index ⟨(i 0).val / 2000, hlt⟩ (0 : Fin 2) * 2000 ≤ (i 0).val
      ∧ (i 0).val < win1_9.index ⟨(i 0).val / 2000, hlt⟩ (0 : Fin 2) * 2000 + 2000
    rw [e90]; show (i 0).val / 2000 * 2000 ≤ (i 0).val ∧ (i 0).val < (i 0).val / 2000 * 2000 + 2000; omega
  | ⟨1, _⟩ =>
    show win1_9.index ⟨(i 0).val / 2000, hlt⟩ (1 : Fin 2) * 128 ≤ (i 1).val
      ∧ (i 1).val < win1_9.index ⟨(i 0).val / 2000, hlt⟩ (1 : Fin 2) * 128 + 128
    omega

/-- Every row of the second output lies in some point's block. -/
theorem cover_prop (i : S50000x1.Idx) :
    ∃ t : Fin cfg1.N, (cfg1.win 10).flush t = true ∧ i ∈ ((cfg1.win 10).blk t).view.set := by
  have hi0 : (i 0).val < 50000 := (i 0).isLt
  have hi1 : (i 1).val < 1 := (i 1).isLt
  have hN : grid1.N = 25 := N_1
  have hlt : (i 0).val / 2000 < grid1.N := by rw [hN]; omega
  obtain ⟨-, -, -, -, -, -, -, -, -, -, -, -, -, -, -, -, -, eA0, eA1⟩ := idx1 ⟨(i 0).val / 2000, hlt⟩
  refine ⟨⟨(i 0).val / 2000, hlt⟩, flush1_10 _, ?_⟩
  rw [mem_blk_prop]
  intro a
  match a with
  | ⟨0, _⟩ =>
    show win1_10.index ⟨(i 0).val / 2000, hlt⟩ (0 : Fin 2) * 2000 ≤ (i 0).val
      ∧ (i 0).val < win1_10.index ⟨(i 0).val / 2000, hlt⟩ (0 : Fin 2) * 2000 + 2000
    rw [eA0]; show (i 0).val / 2000 * 2000 ≤ (i 0).val ∧ (i 0).val < (i 0).val / 2000 * 2000 + 2000; omega
  | ⟨1, _⟩ =>
    show win1_10.index ⟨(i 0).val / 2000, hlt⟩ (1 : Fin 2) * 1 ≤ (i 1).val
      ∧ (i 1).val < win1_10.index ⟨(i 0).val / 2000, hlt⟩ (1 : Fin 2) * 1 + 1
    omega

/-- The first result array after region 1, whatever the region finds in its arrays. -/
theorem out_array (c : Dev nD) : (dat1 V c).arrAt 9 cfg1.N = outArr (V c main_arg0) (V c main_v15) (V c main_arg2) (V c main_arg5) (V c main_arg6) (V c main_arg7) (V c main_arg8) :=
  (dat1 V c).arrAt_eq_of_cover 9 _ (fun t _ => flushed_out V c t) cover_out

/-- The second result array after region 1. -/
theorem prop_array (c : Dev nD) :
    (dat1 V c).arrAt 10 cfg1.N = propArr (outArr (V c main_arg0) (V c main_v15) (V c main_arg2) (V c main_arg5) (V c main_arg6) (V c main_arg7) (V c main_arg8)) (V c main_arg9) (V c main_arg10) :=
  (dat1 V c).arrAt_eq_of_cover 10 _ (fun t _ => flushed_prop V c t) cover_prop

end Cert.KernelIdeal.GateArrays

end
-- ==== Proof.KernelValue.lean ====
/-
  The idealized kernel program's two results as functions of its arguments.

  Region 0 finds the arguments as launched (the host operations before it only cut the edge list into its two rows),
  so it leaves the per-node messages LayerSpec.msgArr of x, W_msg, b_msg. The host operations between the regions
  gather the messages' rows at the source ids and add them up at the destination ids (aggr), reading the message array
  region 0 left. Region 1 finds the arguments as launched and that aggregate, so it leaves LayerSpec.outArr and
  LayerSpec.propArr of them.
-/
import proofs.«119715_j71459665871600_2_alg».proof.Proof.KernelRun
import proofs.«119715_j71459665871600_2_alg».proof.Proof.MsgArray
import proofs.«119715_j71459665871600_2_alg».proof.Proof.GateArrays
import Idealize.ShloMosaic.Lib.StableHlo.Run

set_option maxRecDepth 16384

noncomputable section

namespace Cert.KernelIdeal.Results

open Cert.KernelIdeal Cert.KernelIdeal.Gen Cert.KernelIdeal.MsgArray Cert.KernelIdeal.GateArrays Cert.KernelIdeal.Fold Cert.LayerSpec
open Idealize.ShloMosaic Idealize.ShloMosaic.TcCoe Idealize.SL.Sem
open Idealize.ShloMosaic.Pipeline (Dat)

/-! ## The host operations' terms -/

/-- Row r of the edge list, as a vector of node ids. -/
def edgeRow (r : Nat) (h : S2x800000.Slices ![r, 0] S1x800000) (e : IVec S2x800000 32) : IVec S800000 32 :=
  shapeCast _ (extractStridedSlice S1x800000 ![r, 0] e h) shapeCasts_S1x800000_S800000

/-- The aggregated messages: rows of M gathered at the source ids (a negative id counted from the end), widened, added up
    at the destination ids. -/
def aggr (M : FVec Ideal S50000x128 .bf16) (s d : IVec S800000 32) : FVec Ideal S50000x128 .f32 :=
  Host.scatterAdd scatter_S50000x128_S800000x1_S800000x128_1_0_0_1 (broadcastInDim S50000x128 ![] bcast_S_S50000x128 (constant S_ .f32 0x00000000#32))
    (broadcastInDim S800000x1 ![0] bcast_S800000_S800000x1_0 d)
    (extf .f32 (Host.gather gather_S50000x128_S800000x1_S800000x128_1_0_n_n_0_1_1128 M
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s))) bitsLt_bf16_f32)

variable (m : (ℓ : Loc nD τ sig) → Buf (Elt Ideal) ℓ) (ρ : Dev nD → PrngReg)

/-! ## What region 0 finds and leaves -/

theorem V1_main_arg0 (c : Dev nD) : V1 m ρ c main_arg0 = m ((c : Thread nD τ).loc main_arg0) :=
  calc W1 m ρ c (Proc.devRef .tc main_arg0)
    _ = W0 m ρ c (Proc.devRef .tc main_arg0) := StableHlo.after_of_forall_not_mem _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg0) := rfl
theorem V1_main_arg3 (c : Dev nD) : V1 m ρ c main_arg3 = m ((c : Thread nD τ).loc main_arg3) :=
  calc W1 m ρ c (Proc.devRef .tc main_arg3)
    _ = W0 m ρ c (Proc.devRef .tc main_arg3) := StableHlo.after_of_forall_not_mem _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := rfl
theorem V1_main_arg4 (c : Dev nD) : V1 m ρ c main_arg4 = m ((c : Thread nD τ).loc main_arg4) :=
  calc W1 m ρ c (Proc.devRef .tc main_arg4)
    _ = W0 m ρ c (Proc.devRef .tc main_arg4) := StableHlo.after_of_forall_not_mem _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg4) := rfl
theorem V1_main_arg1 (c : Dev nD) : V1 m ρ c main_arg1 = m ((c : Thread nD τ).loc main_arg1) :=
  calc W1 m ρ c (Proc.devRef .tc main_arg1)
    _ = W0 m ρ c (Proc.devRef .tc main_arg1) := StableHlo.after_of_forall_not_mem _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg1) := rfl

/-- The two rows of the edge list, as the host operations before region 0 leave them. -/
theorem W1_main_v1 (c : Dev nD) : W1 m ρ c (Proc.devRef .tc main_v1) = edgeRow 0 slices_S2x800000_S1x800000_0_0 (m ((c : Thread nD τ).loc main_arg1)) := by
  show StableHlo.after hostOps0 (W0 m ρ c) (Proc.devRef .tc main_v1) = _
  dsimp only [hostOps0]
  after_results
  rfl
theorem W1_main_v3 (c : Dev nD) : W1 m ρ c (Proc.devRef .tc main_v3) = edgeRow 1 slices_S2x800000_S1x800000_1_0 (m ((c : Thread nD τ).loc main_arg1)) := by
  show StableHlo.after hostOps0 (W0 m ρ c) (Proc.devRef .tc main_v3) = _
  dsimp only [hostOps0]
  after_results
  rfl

/-- The message array region 0 leaves. -/
theorem W2_main_v4 (c : Dev nD) :
    W2 m ρ c (Proc.devRef .tc main_v4) = msgArr (m ((c : Thread nD τ).loc main_arg0)) (m ((c : Thread nD τ).loc main_arg3)) (m ((c : Thread nD τ).loc main_arg4)) := by
  refine (W2_arr m ρ c 3).trans ?_
  refine (msg_array (V1 m ρ) c).trans ?_
  rw [V1_main_arg0, V1_main_arg3, V1_main_arg4]

/-- Region 0 writes neither row of the edge list. -/
theorem W2_main_v1 (c : Dev nD) : W2 m ρ c (Proc.devRef .tc main_v1) = edgeRow 0 slices_S2x800000_S1x800000_0_0 (m ((c : Thread nD τ).loc main_arg1)) :=
  (W2_of_ne m ρ c main_v1 (by decide)).trans (W1_main_v1 m ρ c)
theorem W2_main_v3 (c : Dev nD) : W2 m ρ c (Proc.devRef .tc main_v3) = edgeRow 1 slices_S2x800000_S1x800000_1_0 (m ((c : Thread nD τ).loc main_arg1)) :=
  (W2_of_ne m ρ c main_v3 (by decide)).trans (W1_main_v3 m ρ c)

/-! ## What region 1 finds -/

/-- The host operations between the regions, from any contents. -/
theorem between_v15 (W : Valuation τ sig (Elt Ideal)) :
    StableHlo.after hostOps1 W (Proc.devRef .tc main_v15)
      = aggr (W (Proc.devRef .tc main_v4)) (W (Proc.devRef .tc main_v1)) (W (Proc.devRef .tc main_v3)) := by
  dsimp only [hostOps1]
  after_results
  rfl

theorem V3_main_v15 (c : Dev nD) :
    V3 m ρ c main_v15 = aggr (msgArr (m ((c : Thread nD τ).loc main_arg0)) (m ((c : Thread nD τ).loc main_arg3)) (m ((c : Thread nD τ).loc main_arg4)))
      (edgeRow 0 slices_S2x800000_S1x800000_0_0 (m ((c : Thread nD τ).loc main_arg1))) (edgeRow 1 slices_S2x800000_S1x800000_1_0 (m ((c : Thread nD τ).loc main_arg1))) := by
  refine (between_v15 (W2 m ρ c)).trans ?_
  rw [W2_main_v4, W2_main_v1, W2_main_v3]

theorem V3_main_arg0 (c : Dev nD) : V3 m ρ c main_arg0 = m ((c : Thread nD τ).loc main_arg0) :=
  ((W4_arr m ρ c 0).trans (((dat1 (V3 m ρ) c).arrAt_in 0 rfl _).trans (A_eq1 (V3 m ρ) c 0))).symm.trans (W4_main_arg0 m ρ c)
theorem V3_main_arg2 (c : Dev nD) : V3 m ρ c main_arg2 = m ((c : Thread nD τ).loc main_arg2) :=
  ((W4_arr m ρ c 2).trans (((dat1 (V3 m ρ) c).arrAt_in 2 rfl _).trans (A_eq1 (V3 m ρ) c 2))).symm.trans (W4_main_arg2 m ρ c)
theorem V3_main_arg5 (c : Dev nD) : V3 m ρ c main_arg5 = m ((c : Thread nD τ).loc main_arg5) :=
  ((W4_arr m ρ c 3).trans (((dat1 (V3 m ρ) c).arrAt_in 3 rfl _).trans (A_eq1 (V3 m ρ) c 3))).symm.trans (W4_main_arg5 m ρ c)
theorem V3_main_arg6 (c : Dev nD) : V3 m ρ c main_arg6 = m ((c : Thread nD τ).loc main_arg6) :=
  ((W4_arr m ρ c 4).trans (((dat1 (V3 m ρ) c).arrAt_in 4 rfl _).trans (A_eq1 (V3 m ρ) c 4))).symm.trans (W4_main_arg6 m ρ c)
theorem V3_main_arg7 (c : Dev nD) : V3 m ρ c main_arg7 = m ((c : Thread nD τ).loc main_arg7) :=
  ((W4_arr m ρ c 5).trans (((dat1 (V3 m ρ) c).arrAt_in 5 rfl _).trans (A_eq1 (V3 m ρ) c 5))).symm.trans (W4_main_arg7 m ρ c)
theorem V3_main_arg8 (c : Dev nD) : V3 m ρ c main_arg8 = m ((c : Thread nD τ).loc main_arg8) :=
  ((W4_arr m ρ c 6).trans (((dat1 (V3 m ρ) c).arrAt_in 6 rfl _).trans (A_eq1 (V3 m ρ) c 6))).symm.trans (W4_main_arg8 m ρ c)
theorem V3_main_arg9 (c : Dev nD) : V3 m ρ c main_arg9 = m ((c : Thread nD τ).loc main_arg9) :=
  ((W4_arr m ρ c 7).trans (((dat1 (V3 m ρ) c).arrAt_in 7 rfl _).trans (A_eq1 (V3 m ρ) c 7))).symm.trans (W4_main_arg9 m ρ c)
theorem V3_main_arg10 (c : Dev nD) : V3 m ρ c main_arg10 = m ((c : Thread nD τ).loc main_arg10) :=
  ((W4_arr m ρ c 8).trans (((dat1 (V3 m ρ) c).arrAt_in 8 rfl _).trans (A_eq1 (V3 m ρ) c 8))).symm.trans (W4_main_arg10 m ρ c)

/-! ## The results -/

/-- The kernel program's first result, of the arguments. -/
def outOf (c : Dev nD) : S50000x128.Idx → EReal :=
  outArr (m ((c : Thread nD τ).loc main_arg0))
    (aggr (msgArr (m ((c : Thread nD τ).loc main_arg0)) (m ((c : Thread nD τ).loc main_arg3)) (m ((c : Thread nD τ).loc main_arg4)))
      (edgeRow 0 slices_S2x800000_S1x800000_0_0 (m ((c : Thread nD τ).loc main_arg1))) (edgeRow 1 slices_S2x800000_S1x800000_1_0 (m ((c : Thread nD τ).loc main_arg1))))
    (m ((c : Thread nD τ).loc main_arg2)) (m ((c : Thread nD τ).loc main_arg5)) (m ((c : Thread nD τ).loc main_arg6)) (m ((c : Thread nD τ).loc main_arg7)) (m ((c : Thread nD τ).loc main_arg8))

/-- The kernel program's second result, of the arguments. -/
def propOf (c : Dev nD) : S50000x1.Idx → EReal :=
  propArr (outOf m c) (m ((c : Thread nD τ).loc main_arg9)) (m ((c : Thread nD τ).loc main_arg10))

theorem out_final (c : Dev nD) : (dat1 (V3 m ρ) c).arrAt 9 cfg1.N = outOf m c := by
  refine (out_array (V3 m ρ) c).trans ?_
  rw [V3_main_arg0, V3_main_v15, V3_main_arg2, V3_main_arg5, V3_main_arg6, V3_main_arg7, V3_main_arg8]
  rfl

theorem prop_final (c : Dev nD) : (dat1 (V3 m ρ) c).arrAt 10 cfg1.N = propOf m c := by
  refine (prop_array (V3 m ρ) c).trans ?_
  rw [V3_main_arg0, V3_main_v15, V3_main_arg2, V3_main_arg5, V3_main_arg6, V3_main_arg7, V3_main_arg8, V3_main_arg9, V3_main_arg10]
  rfl

/-- The kernel program's run with both results at their functions of the arguments, the arguments unchanged. -/
theorem run : θ_run defs (onTc (τ := τ) (main (F := Ideal))) ⟨m, fun _ => 0, ρ⟩ (fun r => ∀ c : Dev nD,
      r.2.mem ((c.tc : Thread nD τ).loc main_v16_0) = outOf m c
      ∧ r.2.mem ((c.tc : Thread nD τ).loc main_v16_1) = propOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (out_final m ρ c), (h c).2.1.trans (prop_final m ρ c), (h c).2.2⟩)
    (run_results m ρ)

end Cert.KernelIdeal.Results

end
-- ==== Proof.RefRun.lean ====
/-
  The reference program's run, read in five stages. Its @main is a straight line of 49 host operations; from any memory
  every weakly fair execution ends with each buffer at the fold of the operations over the launch contents. The fold
  is cut where the layer's mathematics cuts it — the per-node messages; the gather along the source ids and the
  scatter-add along the destination ids; conv_out; the gate and the mix; the importance head — and each stage is read
  as its operations applied to what the stage before left, so that no sub-term is ever written twice. A buffer that a
  stage does not write keeps its contents through it; no operation writes an argument.
-/
import proofs.«119715_j71459665871600_2_alg».proof.Proof.RefOps
import Idealize.ShloMosaic.Lib.StableHlo.Run

set_option maxRecDepth 16384

noncomputable section

namespace Cert.ReferenceIdeal.Staged

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

/-- The fold over two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## The stages' terms -/

/-- The per-node messages: x · W_msg + b_msg. -/
def msgT (x : FVec F S50000x128 .f32) (w : FVec F S128x128 .f32) (b : FVec F S128 .f32) : FVec F S50000x128 .f32 :=
  addf (Host.dotGeneral dot_S50000x128_S128x128_S50000x128_1_0_0_1_n_n none x w)
    (broadcastInDim S50000x128 ![0, 1] bcast_S1x128_S50000x128_0_1 (broadcastInDim S1x128 ![1] bcast_S128_S1x128_1 b))

/-- Row r of the edge list, as a vector of node ids. -/
def edgeRow (r : Nat) (h : S2x800000.Slices ![r, 0] S1x800000) (e : IVec S2x800000 32) : IVec S800000 32 :=
  shapeCast _ (extractStridedSlice S1x800000 ![r, 0] e h) shapeCasts_S1x800000_S800000

/-- The aggregated messages: rows of M gathered at the source ids (a negative id counted from the end), added up at
    the destination ids. -/
def aggrT (M : FVec F S50000x128 .f32) (s d : IVec S800000 32) : FVec F S50000x128 .f32 :=
  Host.scatterAdd scatter_S50000x128_S800000x1_S800000x128_1_0_0_1 (broadcastInDim S50000x128 ![] bcast_S_S50000x128 (constant S_ .f32 0x00000000#32))
    (broadcastInDim S800000x1 ![0] bcast_S800000_S800000x1_0 d)
    (Host.gather gather_S50000x128_S800000x1_S800000x128_1_0_n_n_0_1_1128 M
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))

/-- conv_out: [x, a] · W_upd + b_upd. -/
def convT (x a : FVec F S50000x128 .f32) (w : FVec F S256x128 .f32) (b : FVec F S128 .f32) : FVec F S50000x128 .f32 :=
  addf (Host.dotGeneral dot_S50000x256_S256x128_S50000x128_1_0_0_1_n_n none
      (concatenate S50000x256 1 [⟨S50000x128, x⟩, ⟨S50000x128, a⟩] concatenates_S50000x128_S50000x128_S50000x256_d1) w)
    (broadcastInDim S50000x128 ![0, 1] bcast_S1x128_S50000x128_0_1 (broadcastInDim S1x128 ![1] bcast_S128_S1x128_1 b))

/-- The float literal 1.0 at every entry. -/
def onesT : FVec F S50000x128 .f32 := broadcastInDim S50000x128 ![] bcast_S_S50000x128 (constant S_ .f32 0x3F800000#32)

/-- The gate: 1 / (1 + e^(−([cv, imp] · W_gate + b_gate))). -/
def gateT (cv : FVec F S50000x128 .f32) (imp : FVec F S50000x1 .f32) (w : FVec F S129x128 .f32) (b : FVec F S128 .f32) : FVec F S50000x128 .f32 :=
  Host.divf onesT (addf onesT (Host.exp (Host.negf (addf (Host.dotGeneral dot_S50000x129_S129x128_S50000x128_1_0_0_1_n_n none
      (concatenate S50000x129 1 [⟨S50000x128, cv⟩, ⟨S50000x1, imp⟩] concatenates_S50000x128_S50000x1_S50000x129_d1) w)
    (broadcastInDim S50000x128 ![0, 1] bcast_S1x128_S50000x128_0_1 (broadcastInDim S1x128 ![1] bcast_S128_S1x128_1 b))))))

/-- The gated output: g · cv + (1 − g) · x. -/
def mixT (g cv x : FVec F S50000x128 .f32) : FVec F S50000x128 .f32 :=
  addf (mulf g cv) (mulf (subf onesT g) x)

/-- The importance head: o · W_imp + b_imp. -/
def propT (o : FVec F S50000x128 .f32) (w : FVec F S128x1 .f32) (b : FVec F S1 .f32) : FVec F S50000x1 .f32 :=
  addf (Host.dotGeneral dot_S50000x128_S128x1_S50000x1_1_0_0_1_n_n none o w)
    (broadcastInDim S50000x1 ![0, 1] bcast_S1x1_S50000x1_0_1 (broadcastInDim S1x1 ![1] bcast_S1_S1x1_1 b))

/-! ## The five stretches of the line -/

abbrev Aops : List (HloOp τ sig (Elt F)) := (ops (F := F)).take 8
abbrev Bops : List (HloOp τ sig (Elt F)) := ((ops (F := F)).drop 8).take 13
abbrev Cops : List (HloOp τ sig (Elt F)) := ((ops (F := F)).drop 21).take 5
abbrev D1ops : List (HloOp τ sig (Elt F)) := ((ops (F := F)).drop 26).take 13
abbrev D2ops : List (HloOp τ sig (Elt F)) := ((ops (F := F)).drop 39).take 6
abbrev Eops : List (HloOp τ sig (Elt F)) := (ops (F := F)).drop 45

theorem ops_split : (ops (F := F)) = Aops ++ (Bops ++ (Cops ++ (D1ops ++ (D2ops ++ Eops)))) := rfl

theorem after_ops (V : Valuation τ sig (Elt F)) :
    after (ops (F := F)) V = after Eops (after D2ops (after D1ops (after Cops (after Bops (after Aops V))))) := by
  have h : after (ops (F := F)) V = after (Aops ++ (Bops ++ (Cops ++ (D1ops ++ (D2ops ++ Eops))))) V := congrArg (fun l => after l V) ops_split
  rw [h, after_append, after_append, after_append, after_append, after_append]

variable (V : Valuation τ sig (Elt F))

/-! ## What each stretch computes -/

theorem A_v7 : after Aops V (Proc.devRef .tc main_v7) = msgT (V (Proc.devRef .tc main_arg0)) (V (Proc.devRef .tc main_arg3)) (V (Proc.devRef .tc main_arg4)) := by
  simp only [Aops, ops, List.take_succ_cons, List.take_zero]
  after_results
  rfl
theorem A_v1 : after Aops V (Proc.devRef .tc main_v1) = edgeRow 0 slices_S2x800000_S1x800000_0_0 (V (Proc.devRef .tc main_arg1)) := by
  simp only [Aops, ops, List.take_succ_cons, List.take_zero]
  after_results
  rfl
theorem A_v3 : after Aops V (Proc.devRef .tc main_v3) = edgeRow 1 slices_S2x800000_S1x800000_1_0 (V (Proc.devRef .tc main_arg1)) := by
  simp only [Aops, ops, List.take_succ_cons, List.take_zero]
  after_results
  rfl
theorem B_v17 : after Bops V (Proc.devRef .tc main_v17) = aggrT (V (Proc.devRef .tc main_v7)) (V (Proc.devRef .tc main_v1)) (V (Proc.devRef .tc main_v3)) := by
  simp only [Bops, ops, List.take_succ_cons, List.take_zero, List.drop_succ_cons, List.drop_zero]
  after_results
  rfl
theorem C_v22 : after Cops V (Proc.devRef .tc main_v22) = convT (V (Proc.devRef .tc main_arg0)) (V (Proc.devRef .tc main_v17)) (V (Proc.devRef .tc main_arg5)) (V (Proc.devRef .tc main_arg6)) := by
  simp only [Cops, ops, List.take_succ_cons, List.take_zero, List.drop_succ_cons, List.drop_zero]
  after_results
  rfl
theorem D1_v33 : after D1ops V (Proc.devRef .tc main_v33) = gateT (V (Proc.devRef .tc main_v22)) (V (Proc.devRef .tc main_arg2)) (V (Proc.devRef .tc main_arg7)) (V (Proc.devRef .tc main_arg8)) := by
  simp only [D1ops, ops, List.take_succ_cons, List.take_zero, List.drop_succ_cons, List.drop_zero]
  after_results
  rfl
theorem D2_v38 : after D2ops V (Proc.devRef .tc main_v38) = mixT (V (Proc.devRef .tc main_v33)) (V (Proc.devRef .tc main_v22)) (V (Proc.devRef .tc main_arg0)) := by
  simp only [D2ops, ops, List.take_succ_cons, List.take_zero, List.drop_succ_cons, List.drop_zero]
  after_results
  rfl
theorem E_v42 : after Eops V (Proc.devRef .tc main_v42) = propT (V (Proc.devRef .tc main_v38)) (V (Proc.devRef .tc main_arg9)) (V (Proc.devRef .tc main_arg10)) := by
  simp only [Eops, ops, List.drop_succ_cons, List.drop_zero]
  after_results
  rfl

/-! ## What each stretch keeps -/

theorem A_keeps_main_arg0 : after Aops V (Proc.devRef .tc main_arg0) = V (Proc.devRef .tc main_arg0) :=
  after_of_forall_not_mem _ _ (List.forall_iff_forall_mem.mp (by
    simp only [Aops, ops, List.take_succ_cons, List.take_zero, List.drop_succ_cons, List.drop_zero, List.Forall, nullary_writes, unary_writes, binary_writes, ternary_writes, quaternary_writes, reshape_writes, binaryIndexed_writes, Finset.mem_singleton]
    repeat' apply And.intro
    all_goals exact devRef_ne_of_ne (by decide)))
theorem A_keeps_main_arg2 : after Aops V (Proc.devRef .tc main_arg2) = V (Proc.devRef .tc main_arg2) :=
  after_of_forall_not_mem _ _ (List.forall_iff_forall_mem.mp (by
    simp only [Aops, ops, List.take_succ_cons, List.take_zero, List.drop_succ_cons, List.drop_zero, List.Forall, nullary_writes, unary_writes, binary_writes, ternary_writes, quaternary_writes, reshape_writes, binaryIndexed_writes, Finset.mem_singleton]
    repeat' apply And.intro
    all_goals exact devRef_ne_of_ne (by decide)))
theorem A_keeps_main_arg5 : after Aops V (Proc.devRef .tc main_arg5) = V (Proc.devRef .tc main_arg5) :=
  after_of_forall_not_mem _ _ (List.forall_iff_forall_mem.mp (by
    simp only [Aops, ops, List.take_succ_cons, List.take_zero, List.drop_succ_cons, List.drop_zero, List.Forall, nullary_writes, unary_writes, binary_writes, ternary_writes, quaternary_writes, reshape_writes, binaryIndexed_writes, Finset.mem_singleton]
    repeat' apply And.intro
    all_goals exact devRef_ne_of_ne (by decide)))
theorem A_keeps_main_arg6 : after Aops V (Proc.devRef .tc main_arg6) = V (Proc.devRef .tc main_arg6) :=
  after_of_forall_not_mem _ _ (List.forall_iff_forall_mem.mp (by
    simp only [Aops, ops, List.take_succ_cons, List.take_zero, List.drop_succ_cons, List.drop_zero, List.Forall, nullary_writes, unary_writes, binary_writes, ternary_writes, quaternary_writes, reshape_writes, binaryIndexed_writes, Finset.mem_singleton]
    repeat' apply And.intro
    all_goals exact devRef_ne_of_ne (by decide)))
theorem A_keeps_main_arg7 : after Aops V (Proc.devRef .tc main_arg7) = V (Proc.devRef .tc main_arg7) :=
  after_of_forall_not_mem _ _ (List.forall_iff_forall_mem.mp (by
    simp only [Aops, ops, List.take_succ_cons, List.take_zero, List.drop_succ_cons, List.drop_zero, List.Forall, nullary_writes, unary_writes, binary_writes, ternary_writes, quaternary_writes, reshape_writes, binaryIndexed_writes, Finset.mem_singleton]
    repeat' apply And.intro
    all_goals exact devRef_ne_of_ne (by decide)))
theorem A_keeps_main_arg8 : after Aops V (Proc.devRef .tc main_arg8) = V (Proc.devRef .tc main_arg8) :=
  after_of_forall_not_mem _ _ (List.forall_iff_forall_mem.mp (by
    simp only [Aops, ops, List.take_succ_cons, List.take_zero, List.drop_succ_cons, List.drop_zero, List.Forall, nullary_writes, unary_writes, binary_writes, ternary_writes, quaternary_writes, reshape_writes, binaryIndexed_writes, Finset.mem_singleton]
    repeat' apply And.intro
    all_goals exact devRef_ne_of_ne (by decide)))
theorem A_keeps_main_arg9 : after Aops V (Proc.devRef .tc main_arg9) = V (Proc.devRef .tc main_arg9) :=
  after_of_forall_not_mem _ _ (List.forall_iff_forall_mem.mp (by
    simp only [Aops, ops, List.take_succ_cons, List.take_zero, List.drop_succ_cons, List.drop_zero, List.Forall, nullary_writes, unary_writes, binary_writes, ternary_writes, quaternary_writes, reshape_writes, binaryIndexed_writes, Finset.mem_singleton]
    repeat' apply And.intro
    all_goals exact devRef_ne_of_ne (by decide)))
theorem A_keeps_main_arg10 : after Aops V (Proc.devRef .tc main_arg10) = V (Proc.devRef .tc main_arg10) :=
  after_of_forall_not_mem _ _ (List.forall_iff_forall_mem.mp (by
    simp only [Aops, ops, List.take_succ_cons, List.take_zero, List.drop_succ_cons, List.drop_zero, List.Forall, nullary_writes, unary_writes, binary_writes, ternary_writes, quaternary_writes, reshape_writes, binaryIndexed_writes, Finset.mem_singleton]
    repeat' apply And.intro
    all_goals exact devRef_ne_of_ne (by decide)))
theorem B_keeps_main_arg0 : after Bops V (Proc.devRef .tc main_arg0) = V (Proc.devRef .tc main_arg0) :=
  after_of_forall_not_mem _ _ (List.forall_iff_forall_mem.mp (by
    simp only [Bops, ops, List.take_succ_cons, List.take_zero, List.drop_succ_cons, List.drop_zero, List.Forall, nullary_writes, unary_writes, binary_writes, ternary_writes, quaternary_writes, reshape_writes, binaryIndexed_writes, Finset.mem_singleton]
    repeat' apply And.intro
    all_goals exact devRef_ne_of_ne (by decide)))
theorem B_keeps_main_arg2 : after Bops V (Proc.devRef .tc main_arg2) = V (Proc.devRef .tc main_arg2) :=
  after_of_forall_not_mem _ _ (List.forall_iff_forall_mem.mp (by
    simp only [Bops, ops, List.take_succ_cons, List.take_zero, List.drop_succ_cons, List.drop_zero, List.Forall, nullary_writes, unary_writes, binary_writes, ternary_writes, quaternary_writes, reshape_writes, binaryIndexed_writes, Finset.mem_singleton]
    repeat' apply And.intro
    all_goals exact devRef_ne_of_ne (by decide)))
theorem B_keeps_main_arg5 : after Bops V (Proc.devRef .tc main_arg5) = V (Proc.devRef .tc main_arg5) :=
  after_of_forall_not_mem _ _ (List.forall_iff_forall_mem.mp (by
    simp only [Bops, ops, List.take_succ_cons, List.take_zero, List.drop_succ_cons, List.drop_zero, List.Forall, nullary_writes, unary_writes, binary_writes, ternary_writes, quaternary_writes, reshape_writes, binaryIndexed_writes, Finset.mem_singleton]
    repeat' apply And.intro
    all_goals exact devRef_ne_of_ne (by decide)))
theorem B_keeps_main_arg6 : after Bops V (Proc.devRef .tc main_arg6) = V (Proc.devRef .tc main_arg6) :=
  after_of_forall_not_mem _ _ (List.forall_iff_forall_mem.mp (by
    simp only [Bops, ops, List.take_succ_cons, List.take_zero, List.drop_succ_cons, List.drop_zero, List.Forall, nullary_writes, unary_writes, binary_writes, ternary_writes, quaternary_writes, reshape_writes, binaryIndexed_writes, Finset.mem_singleton]
    repeat' apply And.intro
    all_goals exact devRef_ne_of_ne (by decide)))
theorem B_keeps_main_arg7 : after Bops V (Proc.devRef .tc main_arg7) = V (Proc.devRef .tc main_arg7) :=
  after_of_forall_not_mem _ _ (List.forall_iff_forall_mem.mp (by
    simp only [Bops, ops, List.take_succ_cons, List.take_zero, List.drop_succ_cons, List.drop_zero, List.Forall, nullary_writes, unary_writes, binary_writes, ternary_writes, quaternary_writes, reshape_writes, binaryIndexed_writes, Finset.mem_singleton]
    repeat' apply And.intro
    all_goals exact devRef_ne_of_ne (by decide)))
theorem B_keeps_main_arg8 : after Bops V (Proc.devRef .tc main_arg8) = V (Proc.devRef .tc main_arg8) :=
  after_of_forall_not_mem _ _ (List.forall_iff_forall_mem.mp (by
    simp only [Bops, ops, List.take_succ_cons, List.take_zero, List.drop_succ_cons, List.drop_zero, List.Forall, nullary_writes, unary_writes, binary_writes, ternary_writes, quaternary_writes, reshape_writes, binaryIndexed_writes, Finset.mem_singleton]
    repeat' apply And.intro
    all_goals exact devRef_ne_of_ne (by decide)))
theorem B_keeps_main_arg9 : after Bops V (Proc.devRef .tc main_arg9) = V (Proc.devRef .tc main_arg9) :=
  after_of_forall_not_mem _ _ (List.forall_iff_forall_mem.mp (by
    simp only [Bops, ops, List.take_succ_cons, List.take_zero, List.drop_succ_cons, List.drop_zero, List.Forall, nullary_writes, unary_writes, binary_writes, ternary_writes, quaternary_writes, reshape_writes, binaryIndexed_writes, Finset.mem_singleton]
    repeat' apply And.intro
    all_goals exact devRef_ne_of_ne (by decide)))
theorem B_keeps_main_arg10 : after Bops V (Proc.devRef .tc main_arg10) = V (Proc.devRef .tc main_arg10) :=
  after_of_forall_not_mem _ _ (List.forall_iff_forall_mem.mp (by
    simp only [Bops, ops, List.take_succ_cons, List.take_zero, List.drop_succ_cons, List.drop_zero, List.Forall, nullary_writes, unary_writes, binary_writes, ternary_writes, quaternary_writes, reshape_writes, binaryIndexed_writes, Finset.mem_singleton]
    repeat' apply And.intro
    all_goals exact devRef_ne_of_ne (by decide)))
theorem C_keeps_main_arg0 : after Cops V (Proc.devRef .tc main_arg0) = V (Proc.devRef .tc main_arg0) :=
  after_of_forall_not_mem _ _ (List.forall_iff_forall_mem.mp (by
    simp only [Cops, ops, List.take_succ_cons, List.take_zero, List.drop_succ_cons, List.drop_zero, List.Forall, nullary_writes, unary_writes, binary_writes, ternary_writes, quaternary_writes, reshape_writes, binaryIndexed_writes, Finset.mem_singleton]
    repeat' apply And.intro
    all_goals exact devRef_ne_of_ne (by decide)))
theorem C_keeps_main_arg2 : after Cops V (Proc.devRef .tc main_arg2) = V (Proc.devRef .tc main_arg2) :=
  after_of_forall_not_mem _ _ (List.forall_iff_forall_mem.mp (by
    simp only [Cops, ops, List.take_succ_cons, List.take_zero, List.drop_succ_cons, List.drop_zero, List.Forall, nullary_writes, unary_writes, binary_writes, ternary_writes, quaternary_writes, reshape_writes, binaryIndexed_writes, Finset.mem_singleton]
    repeat' apply And.intro
    all_goals exact devRef_ne_of_ne (by decide)))
theorem C_keeps_main_arg7 : after Cops V (Proc.devRef .tc main_arg7) = V (Proc.devRef .tc main_arg7) :=
  after_of_forall_not_mem _ _ (List.forall_iff_forall_mem.mp (by
    simp only [Cops, ops, List.take_succ_cons, List.take_zero, List.drop_succ_cons, List.drop_zero, List.Forall, nullary_writes, unary_writes, binary_writes, ternary_writes, quaternary_writes, reshape_writes, binaryIndexed_writes, Finset.mem_singleton]
    repeat' apply And.intro
    all_goals exact devRef_ne_of_ne (by decide)))
theorem C_keeps_main_arg8 : after Cops V (Proc.devRef .tc main_arg8) = V (Proc.devRef .tc main_arg8) :=
  after_of_forall_not_mem _ _ (List.forall_iff_forall_mem.mp (by
    simp only [Cops, ops, List.take_succ_cons, List.take_zero, List.drop_succ_cons, List.drop_zero, List.Forall, nullary_writes, unary_writes, binary_writes, ternary_writes, quaternary_writes, reshape_writes, binaryIndexed_writes, Finset.mem_singleton]
    repeat' apply And.intro
    all_goals exact devRef_ne_of_ne (by decide)))
theorem C_keeps_main_arg9 : after Cops V (Proc.devRef .tc main_arg9) = V (Proc.devRef .tc main_arg9) :=
  after_of_forall_not_mem _ _ (List.forall_iff_forall_mem.mp (by
    simp only [Cops, ops, List.take_succ_cons, List.take_zero, List.drop_succ_cons, List.drop_zero, List.Forall, nullary_writes, unary_writes, binary_writes, ternary_writes, quaternary_writes, reshape_writes, binaryIndexed_writes, Finset.mem_singleton]
    repeat' apply And.intro
    all_goals exact devRef_ne_of_ne (by decide)))
theorem C_keeps_main_arg10 : after Cops V (Proc.devRef .tc main_arg10) = V (Proc.devRef .tc main_arg10) :=
  after_of_forall_not_mem _ _ (List.forall_iff_forall_mem.mp (by
    simp only [Cops, ops, List.take_succ_cons, List.take_zero, List.drop_succ_cons, List.drop_zero, List.Forall, nullary_writes, unary_writes, binary_writes, ternary_writes, quaternary_writes, reshape_writes, binaryIndexed_writes, Finset.mem_singleton]
    repeat' apply And.intro
    all_goals exact devRef_ne_of_ne (by decide)))
theorem D1_keeps_main_v22 : after D1ops V (Proc.devRef .tc main_v22) = V (Proc.devRef .tc main_v22) :=
  after_of_forall_not_mem _ _ (List.forall_iff_forall_mem.mp (by
    simp only [D1ops, ops, List.take_succ_cons, List.take_zero, List.drop_succ_cons, List.drop_zero, List.Forall, nullary_writes, unary_writes, binary_writes, ternary_writes, quaternary_writes, reshape_writes, binaryIndexed_writes, Finset.mem_singleton]
    repeat' apply And.intro
    all_goals exact devRef_ne_of_ne (by decide)))
theorem D1_keeps_main_arg0 : after D1ops V (Proc.devRef .tc main_arg0) = V (Proc.devRef .tc main_arg0) :=
  after_of_forall_not_mem _ _ (List.forall_iff_forall_mem.mp (by
    simp only [D1ops, ops, List.take_succ_cons, List.take_zero, List.drop_succ_cons, List.drop_zero, List.Forall, nullary_writes, unary_writes, binary_writes, ternary_writes, quaternary_writes, reshape_writes, binaryIndexed_writes, Finset.mem_singleton]
    repeat' apply And.intro
    all_goals exact devRef_ne_of_ne (by decide)))
theorem D1_keeps_main_arg9 : after D1ops V (Proc.devRef .tc main_arg9) = V (Proc.devRef .tc main_arg9) :=
  after_of_forall_not_mem _ _ (List.forall_iff_forall_mem.mp (by
    simp only [D1ops, ops, List.take_succ_cons, List.take_zero, List.drop_succ_cons, List.drop_zero, List.Forall, nullary_writes, unary_writes, binary_writes, ternary_writes, quaternary_writes, reshape_writes, binaryIndexed_writes, Finset.mem_singleton]
    repeat' apply And.intro
    all_goals exact devRef_ne_of_ne (by decide)))
theorem D1_keeps_main_arg10 : after D1ops V (Proc.devRef .tc main_arg10) = V (Proc.devRef .tc main_arg10) :=
  after_of_forall_not_mem _ _ (List.forall_iff_forall_mem.mp (by
    simp only [D1ops, ops, List.take_succ_cons, List.take_zero, List.drop_succ_cons, List.drop_zero, List.Forall, nullary_writes, unary_writes, binary_writes, ternary_writes, quaternary_writes, reshape_writes, binaryIndexed_writes, Finset.mem_singleton]
    repeat' apply And.intro
    all_goals exact devRef_ne_of_ne (by decide)))
theorem D2_keeps_main_arg9 : after D2ops V (Proc.devRef .tc main_arg9) = V (Proc.devRef .tc main_arg9) :=
  after_of_forall_not_mem _ _ (List.forall_iff_forall_mem.mp (by
    simp only [D2ops, ops, List.take_succ_cons, List.take_zero, List.drop_succ_cons, List.drop_zero, List.Forall, nullary_writes, unary_writes, binary_writes, ternary_writes, quaternary_writes, reshape_writes, binaryIndexed_writes, Finset.mem_singleton]
    repeat' apply And.intro
    all_goals exact devRef_ne_of_ne (by decide)))
theorem D2_keeps_main_arg10 : after D2ops V (Proc.devRef .tc main_arg10) = V (Proc.devRef .tc main_arg10) :=
  after_of_forall_not_mem _ _ (List.forall_iff_forall_mem.mp (by
    simp only [D2ops, ops, List.take_succ_cons, List.take_zero, List.drop_succ_cons, List.drop_zero, List.Forall, nullary_writes, unary_writes, binary_writes, ternary_writes, quaternary_writes, reshape_writes, binaryIndexed_writes, Finset.mem_singleton]
    repeat' apply And.intro
    all_goals exact devRef_ne_of_ne (by decide)))
theorem E_keeps_main_v38 : after Eops V (Proc.devRef .tc main_v38) = V (Proc.devRef .tc main_v38) :=
  after_of_forall_not_mem _ _ (List.forall_iff_forall_mem.mp (by
    simp only [Eops, ops, List.take_succ_cons, List.take_zero, List.drop_succ_cons, List.drop_zero, List.Forall, nullary_writes, unary_writes, binary_writes, ternary_writes, quaternary_writes, reshape_writes, binaryIndexed_writes, Finset.mem_singleton]
    repeat' apply And.intro
    all_goals exact devRef_ne_of_ne (by decide)))
theorem line_keeps_main_arg0 : after (ops (F := F)) V (Proc.devRef .tc main_arg0) = V (Proc.devRef .tc main_arg0) :=
  after_of_forall_not_mem _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))
theorem line_keeps_main_arg1 : after (ops (F := F)) V (Proc.devRef .tc main_arg1) = V (Proc.devRef .tc main_arg1) :=
  after_of_forall_not_mem _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))
theorem line_keeps_main_arg2 : after (ops (F := F)) V (Proc.devRef .tc main_arg2) = V (Proc.devRef .tc main_arg2) :=
  after_of_forall_not_mem _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))
theorem line_keeps_main_arg3 : after (ops (F := F)) V (Proc.devRef .tc main_arg3) = V (Proc.devRef .tc main_arg3) :=
  after_of_forall_not_mem _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))
theorem line_keeps_main_arg4 : after (ops (F := F)) V (Proc.devRef .tc main_arg4) = V (Proc.devRef .tc main_arg4) :=
  after_of_forall_not_mem _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))
theorem line_keeps_main_arg5 : after (ops (F := F)) V (Proc.devRef .tc main_arg5) = V (Proc.devRef .tc main_arg5) :=
  after_of_forall_not_mem _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))
theorem line_keeps_main_arg6 : after (ops (F := F)) V (Proc.devRef .tc main_arg6) = V (Proc.devRef .tc main_arg6) :=
  after_of_forall_not_mem _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))
theorem line_keeps_main_arg7 : after (ops (F := F)) V (Proc.devRef .tc main_arg7) = V (Proc.devRef .tc main_arg7) :=
  after_of_forall_not_mem _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))
theorem line_keeps_main_arg8 : after (ops (F := F)) V (Proc.devRef .tc main_arg8) = V (Proc.devRef .tc main_arg8) :=
  after_of_forall_not_mem _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))
theorem line_keeps_main_arg9 : after (ops (F := F)) V (Proc.devRef .tc main_arg9) = V (Proc.devRef .tc main_arg9) :=
  after_of_forall_not_mem _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))
theorem line_keeps_main_arg10 : after (ops (F := F)) V (Proc.devRef .tc main_arg10) = V (Proc.devRef .tc main_arg10) :=
  after_of_forall_not_mem _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))

end Cert.ReferenceIdeal.Staged

end
-- ==== Proof.RefValue.lean ====
/-
  The reference's stages read at an entry, and its run in the layer's own terms.

  At the extended reals a host dot_general with one contracted axis is the plain sum over that axis, a bias broadcast
  along the rows reads the bias at the column, and a concatenation along the columns reads the left piece below its
  width and the right piece above it. So a product with a concatenated row [x, a] is a sum over 256 cut at 128 — the
  sum with the top half of the weight matrix plus the sum with its bottom half — and with [conv, importance] a sum
  over 129: the first 128 and the last. Cutting a finite sum uses only that addition is commutative and associative,
  which holds on the extended reals with the infinities. The gate the reference spells 1 / (1 + e^(−z)) with the float
  literal 1.0 is the logistic function, because that literal denotes 1.
-/
import proofs.«119715_j71459665871600_2_alg».proof.Proof.RefRun
import proofs.«119715_j71459665871600_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Value Cert.ReferenceIdeal.Staged Cert.LayerSpec
open Idealize.ShloMosaic Idealize.ShloMosaic.TcCoe Idealize.SL.Sem Idealize.ShloMosaic.StableHlo Idealize.ShloMosaic.ValueIdx

/-! ## The four products -/

theorem dA_lhs0 (i : S50000x128.Idx) (q : dot_S50000x128_S128x128_S50000x128_1_0_0_1_n_n.contr.Idx) : (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem dA_lhs1 (i : S50000x128.Idx) (q : dot_S50000x128_S128x128_S50000x128_1_0_0_1_n_n.contr.Idx) : (dot_S50000x128_S128x128_S50000x128_1_0_0_1_n_n.lhsIdx i q 1).val = (q ⟨0, by decide⟩).val :=
  dot_S50000x128_S128x128_S50000x128_1_0_0_1_n_n.lhsIdx_val_of_single rfl i q
theorem dA_rhs0 (i : S50000x128.Idx) (q : dot_S50000x128_S128x128_S50000x128_1_0_0_1_n_n.contr.Idx) : (dot_S50000x128_S128x128_S50000x128_1_0_0_1_n_n.rhsIdx i q 0).val = (q ⟨0, by decide⟩).val :=
  dot_S50000x128_S128x128_S50000x128_1_0_0_1_n_n.rhsIdx_val_of_single rfl i q
theorem dA_rhs1 (i : S50000x128.Idx) (q : dot_S50000x128_S128x128_S50000x128_1_0_0_1_n_n.contr.Idx) : (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- Entry (p, q) of this product is the plain sum over the contracted axis. -/
theorem dA_apply (l : FVec Ideal S50000x128 .f32) (r : FVec Ideal S128x128 .f32) (p : Fin 50000) (q : Fin 128) :
    Host.dotGeneral dot_S50000x128_S128x128_S50000x128_1_0_0_1_n_n none l r (ix2 p q) = ∑ k : Fin 128, l (ix2 p k) * r (ix2 k q) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 p q) ((contrEquiv1 dot_S50000x128_S128x128_S50000x128_1_0_0_1_n_n 128 rfl rfl).symm k) = ix2 p k := funext fun a => Fin.ext (by
    match a with
    | ⟨0, _⟩ => exact dA_lhs0 _ _
    | ⟨1, _⟩ => exact (dA_lhs1 _ _).trans hk)
  have er : dot_S50000x128_S128x128_S50000x128_1_0_0_1_n_n.rhsIdx (ix2 p q) ((contrEquiv1 dot_S50000x128_S128x128_S50000x128_1_0_0_1_n_n 128 rfl rfl).symm k) = ix2 k q := funext fun a => Fin.ext (by
    match a with
    | ⟨0, _⟩ => exact (dA_rhs0 _ _).trans hk
    | ⟨1, _⟩ => exact dA_rhs1 _ _)
  rw [el, er]

theorem dB_lhs0 (i : S50000x128.Idx) (q : dot_S50000x256_S256x128_S50000x128_1_0_0_1_n_n.contr.Idx) : (dot_S50000x256_S256x128_S50000x128_1_0_0_1_n_n.lhsIdx i q 0).val = (i 0).val := by
  unfold DotDims.lhsIdx
  rw [dif_neg (show ¬(0 : Fin S50000x256.rank) ∈ dot_S50000x256_S256x128_S50000x128_1_0_0_1_n_n.lhsBatch by decide), dif_pos (show (0 : Fin S50000x256.rank) ∈ dot_S50000x256_S256x128_S50000x128_1_0_0_1_n_n.lhsNonContracting by decide)]
  rfl
theorem dB_lhs1 (i : S50000x128.Idx) (q : dot_S50000x256_S256x128_S50000x128_1_0_0_1_n_n.contr.Idx) : (dot_S50000x256_S256x128_S50000x128_1_0_0_1_n_n.lhsIdx i q 1).val = (q ⟨0, by decide⟩).val :=
  dot_S50000x256_S256x128_S50000x128_1_0_0_1_n_n.lhsIdx_val_of_single rfl i q
theorem dB_rhs0 (i : S50000x128.Idx) (q : dot_S50000x256_S256x128_S50000x128_1_0_0_1_n_n.contr.Idx) : (dot_S50000x256_S256x128_S50000x128_1_0_0_1_n_n.rhsIdx i q 0).val = (q ⟨0, by decide⟩).val :=
  dot_S50000x256_S256x128_S50000x128_1_0_0_1_n_n.rhsIdx_val_of_single rfl i q
theorem dB_rhs1 (i : S50000x128.Idx) (q : dot_S50000x256_S256x128_S50000x128_1_0_0_1_n_n.contr.Idx) : (dot_S50000x256_S256x128_S50000x128_1_0_0_1_n_n.rhsIdx i q 1).val = (i 1).val := by
  unfold DotDims.rhsIdx
  rw [dif_neg (show ¬(1 : Fin S256x128.rank) ∈ dot_S50000x256_S256x128_S50000x128_1_0_0_1_n_n.rhsBatch by decide), dif_pos (show (1 : Fin S256x128.rank) ∈ dot_S50000x256_S256x128_S50000x128_1_0_0_1_n_n.rhsNonContracting by decide)]
  rfl

/-- Entry (p, q) of this product is the plain sum over the contracted axis. -/
theorem dB_apply (l : FVec Ideal S50000x256 .f32) (r : FVec Ideal S256x128 .f32) (p : Fin 50000) (q : Fin 128) :
    Host.dotGeneral dot_S50000x256_S256x128_S50000x128_1_0_0_1_n_n none l r (ix2 p q) = ∑ k : Fin 256, l (ix2 p k) * r (ix2 k q) := by
  simp only [Host.dotGeneral]
  rw [Ideal.dotGeneral_apply, ← Equiv.sum_comp (contrEquiv1 dot_S50000x256_S256x128_S50000x128_1_0_0_1_n_n 256 rfl rfl).symm]
  refine Finset.sum_congr rfl fun k _ => ?_
  have hk := contrEquiv1_symm_val dot_S50000x256_S256x128_S50000x128_1_0_0_1_n_n 256 rfl rfl k
  have el : dot_S50000x256_S256x128_S50000x128_1_0_0_1_n_n.lhsIdx (ix2 p q) ((contrEquiv1 dot_S50000x256_S256x128_S50000x128_1_0_0_1_n_n 256 rfl rfl).symm k) = ix2 p k := funext fun a => Fin.ext (by
    match a with
    | ⟨0, _⟩ => exact dB_lhs0 _ _
    | ⟨1, _⟩ => exact (dB_lhs1 _ _).trans hk)
  have er : dot_S50000x256_S256x128_S50000x128_1_0_0_1_n_n.rhsIdx (ix2 p q) ((contrEquiv1 dot_S50000x256_S256x128_S50000x128_1_0_0_1_n_n 256 rfl rfl).symm k) = ix2 k q := funext fun a => Fin.ext (by
    match a with
    | ⟨0, _⟩ => exact (dB_rhs0 _ _).trans hk
    | ⟨1, _⟩ => exact dB_rhs1 _ _)
  rw [el, er]

theorem dC_lhs0 (i : S50000x128.Idx) (q : dot_S50000x129_S129x128_S50000x128_1_0_0_1_n_n.contr.Idx) : (dot_S50000x129_S129x128_S50000x128_1_0_0_1_n_n.lhsIdx i q 0).val = (i 0).val := by
  unfold DotDims.lhsIdx
  rw [dif_neg (show ¬(0 : Fin S50000x129.rank) ∈ dot_S50000x129_S129x128_S50000x128_1_0_0_1_n_n.lhsBatch by decide), dif_pos (show (0 : Fin S50000x129.rank) ∈ dot_S50000x129_S129x128_S50000x128_1_0_0_1_n_n.lhsNonContracting by decide)]
  rfl
theorem dC_lhs1 (i : S50000x128.Idx) (q : dot_S50000x129_S129x128_S50000x128_1_0_0_1_n_n.contr.Idx) : (dot_S50000x129_S129x128_S50000x128_1_0_0_1_n_n.lhsIdx i q 1).val = (q ⟨0, by decide⟩).val :=
  dot_S50000x129_S129x128_S50000x128_1_0_0_1_n_n.lhsIdx_val_of_single rfl i q
theorem dC_rhs0 (i : S50000x128.Idx) (q : dot_S50000x129_S129x128_S50000x128_1_0_0_1_n_n.contr.Idx) : (dot_S50000x129_S129x128_S50000x128_1_0_0_1_n_n.rhsIdx i q 0).val = (q ⟨0, by decide⟩).val :=
  dot_S50000x129_S129x128_S50000x128_1_0_0_1_n_n.rhsIdx_val_of_single rfl i q
theorem dC_rhs1 (i : S50000x128.Idx) (q : dot_S50000x129_S129x128_S50000x128_1_0_0_1_n_n.contr.Idx) : (dot_S50000x129_S129x128_S50000x128_1_0_0_1_n_n.rhsIdx i q 1).val = (i 1).val := by
  unfold DotDims.rhsIdx
  rw [dif_neg (show ¬(1 : Fin S129x128.rank) ∈ dot_S50000x129_S129x128_S50000x128_1_0_0_1_n_n.rhsBatch by decide), dif_pos (show (1 : Fin S129x128.rank) ∈ dot_S50000x129_S129x128_S50000x128_1_0_0_1_n_n.rhsNonContracting by decide)]
  rfl

/-- Entry (p, q) of this product is the plain sum over the contracted axis. -/
theorem dC_apply (l : FVec Ideal S50000x129 .f32) (r : FVec Ideal S129x128 .f32) (p : Fin 50000) (q : Fin 128) :
    Host.dotGeneral dot_S50000x129_S129x128_S50000x128_1_0_0_1_n_n none l r (ix2 p q) = ∑ k : Fin 129, l (ix2 p k) * r (ix2 k q) := by
  simp only [Host.dotGeneral]
  rw [Ideal.dotGeneral_apply, ← Equiv.sum_comp (contrEquiv1 dot_S50000x129_S129x128_S50000x128_1_0_0_1_n_n 129 rfl rfl).symm]
  refine Finset.sum_congr rfl fun k _ => ?_
  have hk := contrEquiv1_symm_val dot_S50000x129_S129x128_S50000x128_1_0_0_1_n_n 129 rfl rfl k
  have el : dot_S50000x129_S129x128_S50000x128_1_0_0_1_n_n.lhsIdx (ix2 p q) ((contrEquiv1 dot_S50000x129_S129x128_S50000x128_1_0_0_1_n_n 129 rfl rfl).symm k) = ix2 p k := funext fun a => Fin.ext (by
    match a with
    | ⟨0, _⟩ => exact dC_lhs0 _ _
    | ⟨1, _⟩ => exact (dC_lhs1 _ _).trans hk)
  have er : dot_S50000x129_S129x128_S50000x128_1_0_0_1_n_n.rhsIdx (ix2 p q) ((contrEquiv1 dot_S50000x129_S129x128_S50000x128_1_0_0_1_n_n 129 rfl rfl).symm k) = ix2 k q := funext fun a => Fin.ext (by
    match a with
    | ⟨0, _⟩ => exact (dC_rhs0 _ _).trans hk
    | ⟨1, _⟩ => exact dC_rhs1 _ _)
  rw [el, er]

theorem dD_lhs0 (i : S50000x1.Idx) (q : dot_S50000x128_S128x1_S50000x1_1_0_0_1_n_n.contr.Idx) : (dot_S50000x128_S128x1_S50000x1_1_0_0_1_n_n.lhsIdx i q 0).val = (i 0).val := by
  unfold DotDims.lhsIdx
  rw [dif_neg (show ¬(0 : Fin S50000x128.rank) ∈ dot_S50000x128_S128x1_S50000x1_1_0_0_1_n_n.lhsBatch by decide), dif_pos (show (0 : Fin S50000x128.rank) ∈ dot_S50000x128_S128x1_S50000x1_1_0_0_1_n_n.lhsNonContracting by decide)]
  rfl
theorem dD_lhs1 (i : S50000x1.Idx) (q : dot_S50000x128_S128x1_S50000x1_1_0_0_1_n_n.contr.Idx) : (dot_S50000x128_S128x1_S50000x1_1_0_0_1_n_n.lhsIdx i q 1).val = (q ⟨0, by decide⟩).val :=
  dot_S50000x128_S128x1_S50000x1_1_0_0_1_n_n.lhsIdx_val_of_single rfl i q
theorem dD_rhs0 (i : S50000x1.Idx) (q : dot_S50000x128_S128x1_S50000x1_1_0_0_1_n_n.contr.Idx) : (dot_S50000x128_S128x1_S50000x1_1_0_0_1_n_n.rhsIdx i q 0).val = (q ⟨0, by decide⟩).val :=
  dot_S50000x128_S128x1_S50000x1_1_0_0_1_n_n.rhsIdx_val_of_single rfl i q
theorem dD_rhs1 (i : S50000x1.Idx) (q : dot_S50000x128_S128x1_S50000x1_1_0_0_1_n_n.contr.Idx) : (dot_S50000x128_S128x1_S50000x1_1_0_0_1_n_n.rhsIdx i q 1).val = (i 1).val := by
  unfold DotDims.rhsIdx
  rw [dif_neg (show ¬(1 : Fin S128x1.rank) ∈ dot_S50000x128_S128x1_S50000x1_1_0_0_1_n_n.rhsBatch by decide), dif_pos (show (1 : Fin S128x1.rank) ∈ dot_S50000x128_S128x1_S50000x1_1_0_0_1_n_n.rhsNonContracting by decide)]
  rfl

/-- Entry (p, q) of this product is the plain sum over the contracted axis. -/
theorem dD_apply (l : FVec Ideal S50000x128 .f32) (r : FVec Ideal S128x1 .f32) (p : Fin 50000) (q : Fin 1) :
    Host.dotGeneral dot_S50000x128_S128x1_S50000x1_1_0_0_1_n_n none l r (ix2 p q) = ∑ k : Fin 128, l (ix2 p k) * r (ix2 k q) := by
  simp only [Host.dotGeneral]
  rw [Ideal.dotGeneral_apply, ← Equiv.sum_comp (contrEquiv1 dot_S50000x128_S128x1_S50000x1_1_0_0_1_n_n 128 rfl rfl).symm]
  refine Finset.sum_congr rfl fun k _ => ?_
  have hk := contrEquiv1_symm_val dot_S50000x128_S128x1_S50000x1_1_0_0_1_n_n 128 rfl rfl k
  have el : dot_S50000x128_S128x1_S50000x1_1_0_0_1_n_n.lhsIdx (ix2 p q) ((contrEquiv1 dot_S50000x128_S128x1_S50000x1_1_0_0_1_n_n 128 rfl rfl).symm k) = ix2 p k := funext fun a => Fin.ext (by
    match a with
    | ⟨0, _⟩ => exact dD_lhs0 _ _
    | ⟨1, _⟩ => exact (dD_lhs1 _ _).trans hk)
  have er : dot_S50000x128_S128x1_S50000x1_1_0_0_1_n_n.rhsIdx (ix2 p q) ((contrEquiv1 dot_S50000x128_S128x1_S50000x1_1_0_0_1_n_n 128 rfl rfl).symm k) = ix2 k q := funext fun a => Fin.ext (by
    match a with
    | ⟨0, _⟩ => exact (dD_rhs0 _ _).trans hk
    | ⟨1, _⟩ => exact dD_rhs1 _ _)
  rw [el, er]

/-! ## Broadcasts -/

/-- A bias broadcast along the rows reads the bias at the column. -/
theorem bias_apply (b : FVec Ideal S128 .f32) (p : Fin 50000) (q : Fin 128) :
    broadcastInDim S50000x128 ![0, 1] bcast_S1x128_S50000x128_0_1 (broadcastInDim S1x128 ![1] bcast_S128_S1x128_1 b) (ix2 p q)
      = b (ix1 q) := by
  refine (broadcastInDim_apply _ bcast_S1x128_S50000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ bcast_S128_S1x128_1 b (ix2 (0 : Fin 1) q) (ix1 q) (fun a => match a with
    | ⟨0, _⟩ => by show q.val = if (128 : Nat) = 1 then 0 else q.val; rw [if_neg (by decide)])

/-- The one-entry bias of the importance head, broadcast along the rows. -/
theorem bias1_apply (b : FVec Ideal S1 .f32) (p : Fin 50000) :
    broadcastInDim S50000x1 ![0, 1] bcast_S1x1_S50000x1_0_1 (broadcastInDim S1x1 ![1] bcast_S1_S1x1_1 b) (ix2 p c0)
      = b (ix1 c0) := by
  refine (broadcastInDim_apply _ bcast_S1x1_S50000x1_0_1 _ (ix2 p c0) (ix2 (0 : Fin 1) c0) (fun a => match a with
    | ⟨0, _⟩ => by show 0 = if (1 : Nat) = 1 then 0 else p.val; rw [if_pos rfl]
    | ⟨1, _⟩ => by show 0 = if (1 : Nat) = 1 then 0 else 0; rw [if_pos rfl])).trans ?_
  exact broadcastInDim_apply _ bcast_S1_S1x1_1 b (ix2 (0 : Fin 1) c0) (ix1 c0) (fun a => match a with
    | ⟨0, _⟩ => by show 0 = if (1 : Nat) = 1 then 0 else 0; rw [if_pos rfl])

/-- The float literal 1.0 at every entry. -/
theorem ones_apply (i : S50000x128.Idx) : onesT (F := Ideal) i = lit1 := by
  unfold onesT
  exact (broadcastInDim_apply _ bcast_S_S50000x128 _ i ix0 (fun a => a.elim0)).trans rfl

/-! ## Concatenations along the columns -/

theorem cat256_lo (x a : FVec Ideal S50000x128 .f32) (p : Fin 50000) (k : Fin 128) :
    concatenate S50000x256 1 [⟨S50000x128, x⟩, ⟨S50000x128, a⟩] concatenates_S50000x128_S50000x128_S50000x256_d1 (ix2 p (lo k))
      = x (ix2 p k) :=
  concatenate_pair_apply_left 1 x a _ (ix2 p (lo k)) rfl (ix2 p k) (fun b => match b with | ⟨0, _⟩ => rfl | ⟨1, _⟩ => rfl)

theorem cat256_hi (x a : FVec Ideal S50000x128 .f32) (p : Fin 50000) (k : Fin 128) :
    concatenate S50000x256 1 [⟨S50000x128, x⟩, ⟨S50000x128, a⟩] concatenates_S50000x128_S50000x128_S50000x256_d1 (ix2 p (hi k))
      = a (ix2 p k) :=
  concatenate_pair_apply_right 1 x a _ (ix2 p (hi k)) rfl rfl (ix2 p k)
    (fun b hb => match b, hb with | ⟨0, _⟩, _ => rfl | ⟨1, _⟩, hb => absurd rfl hb)
    (by show k.val + 128 = 128 + k.val; omega)

theorem cat129_fst (cv : FVec Ideal S50000x128 .f32) (imp : FVec Ideal S50000x1 .f32) (p : Fin 50000) (k : Fin 128) :
    concatenate S50000x129 1 [⟨S50000x128, cv⟩, ⟨S50000x1, imp⟩] concatenates_S50000x128_S50000x1_S50000x129_d1 (ix2 p (fst9 k))
      = cv (ix2 p k) :=
  concatenate_pair_apply_left 1 cv imp _ (ix2 p (fst9 k)) rfl (ix2 p k) (fun b => match b with | ⟨0, _⟩ => rfl | ⟨1, _⟩ => rfl)

theorem cat129_last (cv : FVec Ideal S50000x128 .f32) (imp : FVec Ideal S50000x1 .f32) (p : Fin 50000) :
    concatenate S50000x129 1 [⟨S50000x128, cv⟩, ⟨S50000x1, imp⟩] concatenates_S50000x128_S50000x1_S50000x129_d1 (ix2 p last9)
      = imp (ix2 p c0) :=
  concatenate_pair_apply_right 1 cv imp _ (ix2 p last9) rfl rfl (ix2 p c0)
    (fun b hb => match b, hb with | ⟨0, _⟩, _ => rfl | ⟨1, _⟩, hb => absurd rfl hb)
    (by show 0 + 128 = 128; omega)

/-! ## The stages are the layer's formulas -/

/-- conv_out over the whole arrays. -/
def convArr (X A : ShN128.Idx → EReal) (Wu : Sh256x128.Idx → EReal) (bu : Sh128.Idx → EReal) : ShN128.Idx → EReal :=
  fun i => conv (fun k => X (ix2 (i 0) k)) (fun k => A (ix2 (i 0) k)) (fun k q' => Wu (ix2 (lo k) q')) (fun k q' => Wu (ix2 (hi k) q'))
    (fun q' => bu (ix1 q')) (i 1)

/-- The layer's first result through conv_out as an array. -/
theorem outArr_eq (X A : ShN128.Idx → EReal) (I : ShN1.Idx → EReal) (Wu : Sh256x128.Idx → EReal) (bu : Sh128.Idx → EReal)
    (Wg : Sh129x128.Idx → EReal) (bg : Sh128.Idx → EReal) :
    outArr X A I Wu bu Wg bg = fun i =>
      mix (Ideal.logistic (logit (fun k => convArr X A Wu bu (ix2 (i 0) k)) (I (ix2 (i 0) c0)) (fun k q' => Wg (ix2 (fst9 k) q'))
        (fun q' => Wg (ix2 last9 q')) (fun q' => bg (ix1 q')) (i 1))) (convArr X A Wu bu i) (X i) := by
  funext i
  obtain ⟨p, q, rfl⟩ : ∃ (p : Fin 50000) (q : Fin 128), i = ix2 p q := ⟨i 0, i 1, eq_ix2 i⟩
  rfl

theorem msgT_eq (x : FVec Ideal S50000x128 .f32) (w : FVec Ideal S128x128 .f32) (b : FVec Ideal S128 .f32) :
    msgT x w b = msgArr x w b := by
  funext i
  obtain ⟨p, q, rfl⟩ : ∃ (p : Fin 50000) (q : Fin 128), i = ix2 p q := ⟨i 0, i 1, eq_ix2 i⟩
  show Host.dotGeneral dot_S50000x128_S128x128_S50000x128_1_0_0_1_n_n none x w (ix2 p q)
    + broadcastInDim S50000x128 ![0, 1] bcast_S1x128_S50000x128_0_1 (broadcastInDim S1x128 ![1] bcast_S128_S1x128_1 b) (ix2 p q) = _
  rw [dA_apply, bias_apply]
  rfl

theorem convT_eq (x a : FVec Ideal S50000x128 .f32) (w : FVec Ideal S256x128 .f32) (b : FVec Ideal S128 .f32) :
    convT x a w b = convArr x a w b := by
  funext i
  obtain ⟨p, q, rfl⟩ : ∃ (p : Fin 50000) (q : Fin 128), i = ix2 p q := ⟨i 0, i 1, eq_ix2 i⟩
  show Host.dotGeneral dot_S50000x256_S256x128_S50000x128_1_0_0_1_n_n none
      (concatenate S50000x256 1 [⟨S50000x128, x⟩, ⟨S50000x128, a⟩] concatenates_S50000x128_S50000x128_S50000x256_d1) w (ix2 p q)
    + broadcastInDim S50000x128 ![0, 1] bcast_S1x128_S50000x128_0_1 (broadcastInDim S1x128 ![1] bcast_S128_S1x128_1 b) (ix2 p q) = _
  rw [dB_apply, bias_apply, sum_256]
  simp only [cat256_lo, cat256_hi]
  rfl

theorem mixT_eq (cv : FVec Ideal S50000x128 .f32) (imp : FVec Ideal S50000x1 .f32) (w : FVec Ideal S129x128 .f32) (b : FVec Ideal S128 .f32)
    (x : FVec Ideal S50000x128 .f32) :
    mixT (gateT cv imp w b) cv x = fun i =>
      mix (Ideal.logistic (logit (fun k => cv (ix2 (i 0) k)) (imp (ix2 (i 0) c0)) (fun k q' => w (ix2 (fst9 k) q'))
        (fun q' => w (ix2 last9 q')) (fun q' => b (ix1 q')) (i 1))) (cv i) (x i) := by
  funext i
  obtain ⟨p, q, rfl⟩ : ∃ (p : Fin 50000) (q : Fin 128), i = ix2 p q := ⟨i 0, i 1, eq_ix2 i⟩
  have hg : gateT cv imp w b (ix2 p q)
      = Ideal.logistic (logit (fun k => cv (ix2 p k)) (imp (ix2 p c0)) (fun k q' => w (ix2 (fst9 k) q'))
          (fun q' => w (ix2 last9 q')) (fun q' => b (ix1 q')) q) := by
    show Ideal.div (onesT (F := Ideal) (ix2 p q)) (onesT (F := Ideal) (ix2 p q) + Ideal.exp (-(Host.dotGeneral dot_S50000x129_S129x128_S50000x128_1_0_0_1_n_n none
        (concatenate S50000x129 1 [⟨S50000x128, cv⟩, ⟨S50000x1, imp⟩] concatenates_S50000x128_S50000x1_S50000x129_d1) w (ix2 p q)
      + broadcastInDim S50000x128 ![0, 1] bcast_S1x128_S50000x128_0_1 (broadcastInDim S1x128 ![1] bcast_S128_S1x128_1 b) (ix2 p q)))) = _
    rw [ones_apply, dC_apply, bias_apply, sum_129]
    simp only [cat129_fst, cat129_last]
    exact logistic_spelt _
  show gateT cv imp w b (ix2 p q) * cv (ix2 p q) + (onesT (F := Ideal) (ix2 p q) - gateT cv imp w b (ix2 p q)) * x (ix2 p q) = _
  rw [hg, ones_apply]
  rfl

theorem propT_eq (o : FVec Ideal S50000x128 .f32) (w : FVec Ideal S128x1 .f32) (b : FVec Ideal S1 .f32) :
    propT o w b = propArr o w b := by
  funext i
  obtain ⟨p, u, rfl⟩ : ∃ (p : Fin 50000) (u : Fin 1), i = ix2 p u := ⟨i 0, i 1, eq_ix2 i⟩
  obtain rfl : u = c0 := Subsingleton.elim _ _
  show Host.dotGeneral dot_S50000x128_S128x1_S50000x1_1_0_0_1_n_n none o w (ix2 p c0)
    + broadcastInDim S50000x1 ![0, 1] bcast_S1x1_S50000x1_0_1 (broadcastInDim S1x1 ![1] bcast_S1_S1x1_1 b) (ix2 p c0) = _
  rw [dD_apply, bias1_apply]
  rfl

end Cert.ReferenceIdeal.RefValue

end
-- ==== Proof.RefResults.lean ====
/-
  The reference program's two results as functions of its arguments, in the same terms as the kernel program's:
  LayerSpec.outArr of the node features, of the aggregate of the per-node messages LayerSpec.msgArr, of the importances
  and of the update and gate weights; and LayerSpec.propArr of that. The five stages of the line are composed, each
  stage's term replaced by the layer's formula for it.
-/
import proofs.«119715_j71459665871600_2_alg».proof.Proof.RefValue

set_option maxRecDepth 16384

noncomputable section

namespace Cert.ReferenceIdeal.RefResults

open Cert.ReferenceIdeal Cert.ReferenceIdeal.Gen Cert.ReferenceIdeal.Value Cert.ReferenceIdeal.Staged Cert.ReferenceIdeal.RefValue Cert.LayerSpec
open Idealize.ShloMosaic Idealize.ShloMosaic.TcCoe Idealize.SL.Sem Idealize.ShloMosaic.StableHlo Idealize.ShloMosaic.ValueIdx

section Fold
variable (V : Valuation τ sig (Elt Ideal))

/-- The first result, from any launch contents. -/
theorem out_value : after (ops (F := Ideal)) V (Proc.devRef .tc main_v38)
    = outArr (V (Proc.devRef .tc main_arg0))
      (aggrT (F := Ideal) (msgArr (V (Proc.devRef .tc main_arg0)) (V (Proc.devRef .tc main_arg3)) (V (Proc.devRef .tc main_arg4)))
        (edgeRow 0 slices_S2x800000_S1x800000_0_0 (V (Proc.devRef .tc main_arg1))) (edgeRow 1 slices_S2x800000_S1x800000_1_0 (V (Proc.devRef .tc main_arg1))))
      (V (Proc.devRef .tc main_arg2)) (V (Proc.devRef .tc main_arg5)) (V (Proc.devRef .tc main_arg6)) (V (Proc.devRef .tc main_arg7)) (V (Proc.devRef .tc main_arg8)) := by
  rw [after_ops, E_keeps_main_v38, D2_v38]
  rw [D1_v33, D1_keeps_main_v22, D1_keeps_main_arg0]
  rw [C_v22, C_keeps_main_arg2, C_keeps_main_arg7, C_keeps_main_arg8, C_keeps_main_arg0]
  rw [B_v17, B_keeps_main_arg0, B_keeps_main_arg5, B_keeps_main_arg6, B_keeps_main_arg2, B_keeps_main_arg7, B_keeps_main_arg8]
  rw [A_v7, A_v1, A_v3, A_keeps_main_arg0, A_keeps_main_arg5, A_keeps_main_arg6, A_keeps_main_arg2, A_keeps_main_arg7, A_keeps_main_arg8]
  rw [msgT_eq, convT_eq, mixT_eq, outArr_eq]

/-- The second result, from any launch contents. -/
theorem prop_value : after (ops (F := Ideal)) V (Proc.devRef .tc main_v42)
    = propArr (outArr (V (Proc.devRef .tc main_arg0))
      (aggrT (F := Ideal) (msgArr (V (Proc.devRef .tc main_arg0)) (V (Proc.devRef .tc main_arg3)) (V (Proc.devRef .tc main_arg4)))
        (edgeRow 0 slices_S2x800000_S1x800000_0_0 (V (Proc.devRef .tc main_arg1))) (edgeRow 1 slices_S2x800000_S1x800000_1_0 (V (Proc.devRef .tc main_arg1))))
      (V (Proc.devRef .tc main_arg2)) (V (Proc.devRef .tc main_arg5)) (V (Proc.devRef .tc main_arg6)) (V (Proc.devRef .tc main_arg7)) (V (Proc.devRef .tc main_arg8))) (V (Proc.devRef .tc main_arg9)) (V (Proc.devRef .tc main_arg10)) := by
  rw [after_ops, E_v42, D2_v38, D2_keeps_main_arg9, D2_keeps_main_arg10]
  rw [D1_v33, D1_keeps_main_v22, D1_keeps_main_arg0, D1_keeps_main_arg9, D1_keeps_main_arg10]
  rw [C_v22, C_keeps_main_arg2, C_keeps_main_arg7, C_keeps_main_arg8, C_keeps_main_arg0, C_keeps_main_arg9, C_keeps_main_arg10]
  rw [B_v17, B_keeps_main_arg0, B_keeps_main_arg5, B_keeps_main_arg6, B_keeps_main_arg2, B_keeps_main_arg7, B_keeps_main_arg8,
    B_keeps_main_arg9, B_keeps_main_arg10]
  rw [A_v7, A_v1, A_v3, A_keeps_main_arg0, A_keeps_main_arg5, A_keeps_main_arg6, A_keeps_main_arg2, A_keeps_main_arg7, A_keeps_main_arg8,
    A_keeps_main_arg9, A_keeps_main_arg10]
  rw [msgT_eq, convT_eq, mixT_eq, propT_eq, outArr_eq]

end Fold

variable (m : (ℓ : Loc nD τ sig) → Buf (Elt Ideal) ℓ) (ρ : Dev nD → PrngReg)

/-- The reference program's first result, of the arguments. -/
def outOf (c : Dev nD) : S50000x128.Idx → EReal :=
  outArr (m ((c.tc : Thread nD τ).loc main_arg0))
    (aggrT (F := Ideal) (msgArr (m ((c.tc : Thread nD τ).loc main_arg0)) (m ((c.tc : Thread nD τ).loc main_arg3)) (m ((c.tc : Thread nD τ).loc main_arg4)))
      (edgeRow 0 slices_S2x800000_S1x800000_0_0 (m ((c.tc : Thread nD τ).loc main_arg1))) (edgeRow 1 slices_S2x800000_S1x800000_1_0 (m ((c.tc : Thread nD τ).loc main_arg1))))
    (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8))

/-- The reference program's second result, of the arguments. -/
def propOf (c : Dev nD) : S50000x1.Idx → EReal :=
  propArr (outOf m c) (m ((c.tc : Thread nD τ).loc main_arg9)) (m ((c.tc : Thread nD τ).loc main_arg10))

/-- The reference program's run with both results at their functions of the arguments, the arguments unchanged. -/
theorem run : θ_run defs (onTc (τ := τ) (main (F := Ideal))) ⟨m, fun _ => 0, ρ⟩ (fun r => ∀ c : Dev nD,
      r.2.mem ((c.tc : Thread nD τ).loc main_v38) = outOf m c
      ∧ r.2.mem ((c.tc : Thread nD τ).loc main_v42) = propOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
      ⟨(h c main_v38).trans ((out_value (launchContents m c)).trans rfl),
       (h c main_v42).trans ((prop_value (launchContents m c)).trans rfl),
       (h c main_arg0).trans ((line_keeps_main_arg0 (launchContents m c)).trans rfl),
       (h c main_arg1).trans ((line_keeps_main_arg1 (launchContents m c)).trans rfl),
       (h c main_arg2).trans ((line_keeps_main_arg2 (launchContents m c)).trans rfl),
       (h c main_arg3).trans ((line_keeps_main_arg3 (launchContents m c)).trans rfl),
       (h c main_arg4).trans ((line_keeps_main_arg4 (launchContents m c)).trans rfl),
       (h c main_arg5).trans ((line_keeps_main_arg5 (launchContents m c)).trans rfl),
       (h c main_arg6).trans ((line_keeps_main_arg6 (launchContents m c)).trans rfl),
       (h c main_arg7).trans ((line_keeps_main_arg7 (launchContents m c)).trans rfl),
       (h c main_arg8).trans ((line_keeps_main_arg8 (launchContents m c)).trans rfl),
       (h c main_arg9).trans ((line_keeps_main_arg9 (launchContents m c)).trans rfl),
       (h c main_arg10).trans ((line_keeps_main_arg10 (launchContents m c)).trans rfl)⟩)
    (run_seq scopedRefs_eq scopedSems_eq defs main (fun _ => ops) main_eq (fun _ => ops_sub) m ρ)

end Cert.ReferenceIdeal.RefResults

end
-- ==== Proof.lean ====
/-
  The certificate of the importance-propagation layer: a graph layer over 50000 nodes and 800000 edges.

  Both programs compute, for every node r,
    msg   = x_r · W_msg + b_msg,
    aggr  = the sum of msg over the edges into r (rows gathered at the source ids, added up at the destination ids),
    conv  = [x_r, aggr_r] · W_upd + b_upd,
    gate  = 1 / (1 + e^(−([conv, importance_r] · W_gate + b_gate))),
    out   = gate · conv + (1 − gate) · x_r,          prop = out · W_imp + b_imp.
  The kernel program does the two per-node parts in two pipelined kernels over 25 blocks of 2000 rows, with the gather
  and scatter-add between them on the host; it multiplies by W_upd and W_gate in split form (the top and bottom halves of
  W_upd; the first 128 rows and the last row of W_gate) where the reference multiplies concatenated rows, and its changes
  of float format are the identity on the extended reals. The two arrangements differ by cutting finite sums, which needs
  only commutativity and associativity of addition, so the precondition is never opened.

  Each program's run is read back as the same two whole-array functions of the arguments (LayerSpec.outArr of the
  aggregate of LayerSpec.msgArr, and LayerSpec.propArr of it); the aggregate itself is the same gather and scatter-add
  on both sides, applied to equal message arrays and equal edge lists, and is never opened.
-/
import proofs.«119715_j71459665871600_2_alg».proof.Defs
import proofs.«119715_j71459665871600_2_alg».proof.Proof.Gen.Kernel
import proofs.«119715_j71459665871600_2_alg».proof.Proof.Gen.Kernel.Skeleton
import proofs.«119715_j71459665871600_2_alg».proof.Proof.Gen.Kernel.Launch
import proofs.«119715_j71459665871600_2_alg».proof.Proof.Gen.Kernel.Points
import proofs.«119715_j71459665871600_2_alg».proof.Proof.Gen.Kernel.Frame
import proofs.«119715_j71459665871600_2_alg».proof.Proof.Gen.KernelIdeal
import proofs.«119715_j71459665871600_2_alg».proof.Proof.Gen.KernelIdeal.Skeleton
import proofs.«119715_j71459665871600_2_alg».proof.Proof.Gen.KernelIdeal.Launch
import proofs.«119715_j71459665871600_2_alg».proof.Proof.Gen.KernelIdeal.Points
import proofs.«119715_j71459665871600_2_alg».proof.Proof.Gen.KernelIdeal.Frame
import proofs.«119715_j71459665871600_2_alg».proof.Proof.Gen.ReferenceIdeal
import proofs.«119715_j71459665871600_2_alg».proof.Proof.Gen.Pre_finite_inputs
import proofs.«119715_j71459665871600_2_alg».proof.Proof.KernelValue
import proofs.«119715_j71459665871600_2_alg».proof.Proof.RefResults
import Idealize.ShloMosaic.Adequacy
import Idealize.ShloMosaic.Init

set_option maxRecDepth 16384

noncomputable section

namespace Cert.Proof

open Idealize.ShloMosaic Idealize.SL.Sem

/-- The aggregate is one function on both sides: the same gather at the source ids and scatter-add at the destination
    ids, the kernel's widening of the gathered rows being the identity on the extended reals. -/
theorem aggr_same (M : (⟨2, ![50000, 128]⟩ : Shape).Idx → EReal) (s d : IVec (⟨1, ![800000]⟩ : Shape) 32) :
    Cert.ReferenceIdeal.Staged.aggrT (F := Ideal) M s d = Cert.KernelIdeal.Results.aggr M s d := rfl

/-- A row of the edge list is cut out the same way on both sides. -/
theorem edgeRow_same (r : Nat) (h : Cert.ReferenceIdeal.S2x800000.Slices ![r, 0] Cert.ReferenceIdeal.S1x800000)
    (h' : Cert.KernelIdeal.S2x800000.Slices ![r, 0] Cert.KernelIdeal.S1x800000) (e : IVec (⟨2, ![2, 800000]⟩ : Shape) 32) :
    Cert.ReferenceIdeal.Staged.edgeRow r h e = Cert.KernelIdeal.Results.edgeRow r h' e := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.RefResults.run m ρ)

theorem preserves : Cert.preserves_Kernel_KernelIdeal := trivial

/-- From memories agreeing on the arguments the two programs end with equal results: both results are the layer's
    functions of the arguments. -/
theorem algebraic : Cert.algebraic_KernelIdeal_ReferenceIdeal := by
  intro m ρ m' ρ' _ hagree
  refine ⟨fun c => Cert.KernelIdeal.Results.outOf m c, fun c => Cert.KernelIdeal.Results.propOf m c,
    Cert.KernelIdeal.Results.run m ρ, ?_⟩
  have hout : ∀ c, Cert.ReferenceIdeal.RefResults.outOf m' c = Cert.KernelIdeal.Results.outOf m c := by
    intro c
    obtain ⟨h0, h1, h2, h3, h4, h5, h6, h7, h8, h9, h10⟩ := hagree c
    unfold Cert.ReferenceIdeal.RefResults.outOf Cert.KernelIdeal.Results.outOf
    rw [h0, h1, h2, h3, h4, h5, h6, h7, h8, aggr_same]
    rfl
  refine (θ_run Cert.ReferenceIdeal.defs _ _).mono (fun r h c => ⟨(h c).1.trans (hout c), (h c).2.1.trans ?_, (h c).2.2⟩)
    (Cert.ReferenceIdeal.RefResults.run m' ρ')
  obtain ⟨h0, h1, h2, h3, h4, h5, h6, h7, h8, h9, h10⟩ := hagree c
  unfold Cert.ReferenceIdeal.RefResults.propOf Cert.KernelIdeal.Results.propOf
  rw [hout c, h9, h10]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
